-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S5000x128 : Shape := ⟨2, ![5000, 128]⟩
abbrev S5000x2 : Shape := ⟨2, ![5000, 2]⟩
abbrev S5000x1 : Shape := ⟨2, ![5000, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S5000 : Shape := ⟨1, ![5000]⟩
abbrev S1600000x40 : Shape := ⟨2, ![1600000, 40]⟩
abbrev S1x40 : Shape := ⟨2, ![1, 40]⟩

abbrev nBuf : Space → Nat
  | .hbm => 89
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x1, .f32⟩
  | .hbm, ⟨35, _⟩ => ⟨S100000x2, .f32⟩
  | .hbm, ⟨36, _⟩ => ⟨S100000x128, .f32⟩
  | .hbm, ⟨37, _⟩ => ⟨S100000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x128, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .bf16⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1x128, .f32⟩
  | .hbm, ⟨71, _⟩ => ⟨S100000x40, .f32⟩
  | .hbm, ⟨72, _⟩ => ⟨S100000x40, .bf16⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x40, .bf16⟩
  | .hbm, ⟨82, _⟩ => ⟨S1600000x40, .f32⟩
  | .hbm, ⟨83, _⟩ => ⟨S_, .f32⟩
  | .hbm, ⟨84, _⟩ => ⟨S100000x40, .f32⟩
  | .hbm, ⟨85, _⟩ => ⟨S1600000x1, .i32⟩
  | .hbm, ⟨86, _⟩ => ⟨S100000x40, .f32⟩
  | .hbm, ⟨87, _⟩ => ⟨S1x40, .f32⟩
  | .hbm, ⟨88, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x2, .f32⟩
  | .local _ .vmem, ⟨4, _⟩ => ⟨S5000x2, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x2, .f32⟩
  | .local _ .vmem, ⟨11, _⟩ => ⟨S5000x2, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x2, .f32⟩
  | .local _ .vmem, ⟨21, _⟩ => ⟨S5000x2, .f32⟩
  | .local _ .vmem, ⟨22, _⟩ => ⟨S5000x128, .f32⟩
  | .local _ .vmem, ⟨23, _⟩ => ⟨S5000x128, .f32⟩
  | .local _ .vmem, ⟨24, _⟩ => ⟨S128x40, .f32⟩
  | .local _ .vmem, ⟨25, _⟩ => ⟨S5000x40, .f32⟩
  | .local _ .vmem, ⟨26, _⟩ => ⟨S5000x40, .f32⟩
  | .local _ .vmem, ⟨27, _⟩ => ⟨S5000x40, .f32⟩
  | .local _ .vmem, ⟨28, _⟩ => ⟨S5000x40, .f32⟩
  | .local _ .vmem, ⟨29, _⟩ => ⟨S1x40, .f32⟩
  | .local _ .vmem, ⟨30, _⟩ => ⟨S5000x2, .f32⟩
  | .local _ .vmem, ⟨31, _⟩ => ⟨S5000x2, .f32⟩
  | .local _ .vmem, ⟨32, _⟩ => ⟨S5000x40, .f32⟩
  | .local _ .vmem, ⟨33, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  inb_S5000x2_S5000x1_0_1 : ∀ a, (![0, 1] : Fin 2 → Nat) a + S5000x1.size a ≤ S5000x2.size a
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S100000x2.size a
  hwx0_2 : ∀ i : grid0.Coords, EltTy.bits .f32 = 32 ∨ (Rect.block (s := S100000x2) S5000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S100000x2.size a
  hwx1_2 : ∀ i : grid1.Coords, EltTy.bits .f32 = 32 ∨ (Rect.block (s := S100000x2) S5000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30_0) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S_, .f32⟩
  | 17 => ⟨S100000, .f32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S_, .f32⟩
  | 25 => ⟨S100000, .f32⟩
  | 26 => ⟨S100000, .f32⟩
  | 27 => ⟨S100000x128, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S1600000, .f32⟩
  | 61 => ⟨S_, .f32⟩
  | 62 => ⟨S100000, .f32⟩
  | 63 => ⟨S1600000x1, .i32⟩
  | 64 => ⟨S100000, .f32⟩
  | 65 => ⟨S_, .f32⟩
  | 66 => ⟨S_, .f32⟩
  | 67 => ⟨S100000, .f32⟩
  | 68 => ⟨S100000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S_, .f32⟩
  | 75 => ⟨S100000, .f32⟩
  | 76 => ⟨S100000, .f32⟩
  | 77 => ⟨S100000x128, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S_, .f32⟩
  | 111 => ⟨S100000, .f32⟩
  | 112 => ⟨S100000x1, .f32⟩
  | 113 => ⟨S100000x1, .f32⟩
  | 114 => ⟨S100000x128, .f32⟩
  | 115 => ⟨S_, .f32⟩
  | 116 => ⟨S100000, .f32⟩
  | 117 => ⟨S100000x1, .f32⟩
  | 118 => ⟨S100000x1, .f32⟩
  | 119 => ⟨S100000x1, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S1600000, .f32⟩
  | 3 => ⟨S_, .f32⟩
  | 4 => ⟨S100000, .f32⟩
  | 5 => ⟨S1600000x1, .i32⟩
  | 6 => ⟨S100000, .f32⟩
  | 7 => ⟨S_, .f32⟩
  | 8 => ⟨S_, .f32⟩
  | 9 => ⟨S100000, .f32⟩
  | 10 => ⟨S100000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S_, .f32⟩
  | 17 => ⟨S100000, .f32⟩
  | 18 => ⟨S100000, .f32⟩
  | 19 => ⟨S100000x40, .f32⟩
  | 20 => ⟨S_, .f32⟩
  | 21 => ⟨S100000, .f32⟩
  | 22 => ⟨S100000, .f32⟩
  | 23 => ⟨S100000x1, .f32⟩
  | 24 => ⟨S100000x40, .f32⟩
  | 25 => ⟨S100000x40, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x40, .f32⟩
  | 35 => ⟨S_, .f32⟩
  | 36 => ⟨S100000x40, .f32⟩
  | 37 => ⟨S1600000x1, .i32⟩
  | 38 => ⟨S100000x40, .f32⟩
  | 39 => ⟨S_, .f32⟩
  | 40 => ⟨S100000, .f32⟩
  | 41 => ⟨S100000, .f32⟩
  | 42 => ⟨S100000x1, .f32⟩
  | 43 => ⟨S100000x40, .f32⟩
  | 44 => ⟨S100000x40, .f32⟩
  | 45 => ⟨S1x40, .f32⟩
  | 46 => ⟨S100000x40, .f32⟩
  | 47 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v42 : Ref sig .tc := ⟨.hbm, 76, rfl⟩
abbrev main_v43 : Ref sig .tc := ⟨.hbm, 77, rfl⟩
abbrev main_cst_13 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_14 : Ref sig .tc := ⟨.hbm, 84, rfl⟩
abbrev main_v49 : Ref sig .tc := ⟨.hbm, 85, rfl⟩
abbrev main_v50 : Ref sig .tc := ⟨.hbm, 86, rfl⟩
abbrev main_c_15 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_16 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_17 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call5_cst : Ref sig .tc := ⟨.hbm, 106, rfl⟩
abbrev main_call5_v0 : Ref sig .tc := ⟨.hbm, 107, rfl⟩
abbrev main_v67 : Ref sig .tc := ⟨.hbm, 108, rfl⟩
abbrev main_call6_v0 : Ref sig .tc := ⟨.hbm, 109, rfl⟩
abbrev main_call6_cst : Ref sig .tc := ⟨.hbm, 110, rfl⟩
abbrev main_call6_v1 : Ref sig .tc := ⟨.hbm, 111, rfl⟩
abbrev main_call6_v2 : Ref sig .tc := ⟨.hbm, 112, rfl⟩
abbrev main_v68 : Ref sig .tc := ⟨.hbm, 113, rfl⟩
abbrev main_call7_v0 : Ref sig .tc := ⟨.hbm, 114, rfl⟩
abbrev main_call7_cst : Ref sig .tc := ⟨.hbm, 115, rfl⟩
abbrev main_call7_v1 : Ref sig .tc := ⟨.hbm, 116, rfl⟩
abbrev main_call7_v2 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_18 : Ref sig .tc := ⟨.hbm, 122, rfl⟩
abbrev main_v73 : Ref sig .tc := ⟨.hbm, 123, rfl⟩
abbrev main_v74 : Ref sig .tc := ⟨.hbm, 124, rfl⟩
abbrev main_cst_19 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_20 : Ref sig .tc := ⟨.hbm, 129, rfl⟩
abbrev main_v78 : Ref sig .tc := ⟨.hbm, 130, rfl⟩
abbrev main_cst_21 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_22 : Ref sig .tc := ⟨.hbm, 135, rfl⟩
abbrev main_call8_v0 : Ref sig .tc := ⟨.hbm, 136, rfl⟩
abbrev main_call8_v1 : Ref sig .tc := ⟨.hbm, 137, rfl⟩
abbrev main_v82 : Ref sig .tc := ⟨.hbm, 138, rfl⟩
abbrev main_cst_23 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_24 : Ref sig .tc := ⟨.hbm, 143, rfl⟩
abbrev main_call9_v0 : Ref sig .tc := ⟨.hbm, 144, rfl⟩
abbrev main_call9_v1 : Ref sig .tc := ⟨.hbm, 145, rfl⟩
abbrev main_v86 : Ref sig .tc := ⟨.hbm, 146, rfl⟩
abbrev main_v87 : Ref sig .tc := ⟨.hbm, 147, rfl⟩
abbrev main_cst_25 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_c_26 : Ref sig .tc := ⟨.hbm, 154, rfl⟩
abbrev main_v93 : Ref sig .tc := ⟨.hbm, 155, rfl⟩
abbrev main_v94 : Ref sig .tc := ⟨.hbm, 156, rfl⟩
abbrev main_c_27 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_cst_28 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_29 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000x1_S100000x40_0_1 : S100000x1.BroadcastsInDim S100000x40 (![0, 1] : Fin 2 → Fin S100000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.RunOut.lean ====
/-
  The idealized kernel's run with its result named.

  The program is four pipelined regions among stretches of host operations. Its frame run ends with every unscoped
  buffer of a core at the last boundary's contents (`Gen.W12`); the frame keeps of this only that the arguments are
  as launched. Here the same run is read once more at the result buffer as well: it ends holding `Gen.W12` there.
-/
import proofs.«120881_j90460601188826_2_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_out : θ_run defs (onTc (τ := τ) (main (F := F))) ⟨m, fun _ => 0, ρ⟩ (fun r => ∀ c : Dev nD,
      r.2.mem ((c.tc : Thread nD τ).loc main_v58) = W12 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v58 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunOut

end
-- ==== Proof.Walk.lean ====
/-
  Which buffers hold what, from one boundary of the program's run to the next.

  The run is a fold of boundaries: five stretches of host operations, then region, stretch, region, stretch, region,
  stretch, region. No host operation and no region writes an argument; the two-column array of degree factors is
  written once, before the first region, and afterwards only staged as an input; the first layer's features are
  written by the second region and afterwards only read. So each of them is found, at every later boundary, as it
  was when written. These are facts about the run's bookkeeping only, at any float instance.
-/
import proofs.«120881_j90460601188826_2_alg».proof.Proof.Gen.KernelIdeal.Frame

set_option maxRecDepth 16384

noncomputable section

namespace Cert.KernelIdeal.Walk

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- A buffer none of a stretch's operations writes holds after the stretch what it held before. -/
macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments -/

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by kept_by hostOps0_4
    _ = W3 m ρ c (Proc.devRef .tc main_arg0) := by kept_by hostOps0_3
    _ = W2 m ρ c (Proc.devRef .tc main_arg0) := by kept_by hostOps0_2
    _ = W1 m ρ c (Proc.devRef .tc main_arg0) := by kept_by hostOps0_1
    _ = W0 m ρ c (Proc.devRef .tc main_arg0) := by kept_by hostOps0
    _ = m ((c : Thread nD τ).loc main_arg0) := rfl

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by kept_by hostOps0_4
    _ = W3 m ρ c (Proc.devRef .tc main_arg1) := by kept_by hostOps0_3
    _ = W2 m ρ c (Proc.devRef .tc main_arg1) := by kept_by hostOps0_2
    _ = W1 m ρ c (Proc.devRef .tc main_arg1) := by kept_by hostOps0_1
    _ = W0 m ρ c (Proc.devRef .tc main_arg1) := by kept_by hostOps0
    _ = m ((c : Thread nD τ).loc main_arg1) := rfl

theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by kept_by hostOps0_4
    _ = W3 m ρ c (Proc.devRef .tc main_arg2) := by kept_by hostOps0_3
    _ = W2 m ρ c (Proc.devRef .tc main_arg2) := by kept_by hostOps0_2
    _ = W1 m ρ c (Proc.devRef .tc main_arg2) := by kept_by hostOps0_1
    _ = W0 m ρ c (Proc.devRef .tc main_arg2) := by kept_by hostOps0
    _ = m ((c : Thread nD τ).loc main_arg2) := rfl

theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by kept_by hostOps0_4
    _ = W3 m ρ c (Proc.devRef .tc main_arg3) := by kept_by hostOps0_3
    _ = W2 m ρ c (Proc.devRef .tc main_arg3) := by kept_by hostOps0_2
    _ = W1 m ρ c (Proc.devRef .tc main_arg3) := by kept_by hostOps0_1
    _ = W0 m ρ c (Proc.devRef .tc main_arg3) := by kept_by hostOps0
    _ = m ((c : Thread nD τ).loc main_arg3) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by kept_by hostOps0_4
    _ = W3 m ρ c (Proc.devRef .tc main_arg4) := by kept_by hostOps0_3
    _ = W2 m ρ c (Proc.devRef .tc main_arg4) := by kept_by hostOps0_2
    _ = W1 m ρ c (Proc.devRef .tc main_arg4) := by kept_by hostOps0_1
    _ = W0 m ρ c (Proc.devRef .tc main_arg4) := by kept_by hostOps0
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by kept_by hostOps0_4
    _ = W3 m ρ c (Proc.devRef .tc main_arg5) := by kept_by hostOps0_3
    _ = W2 m ρ c (Proc.devRef .tc main_arg5) := by kept_by hostOps0_2
    _ = W1 m ρ c (Proc.devRef .tc main_arg5) := by kept_by hostOps0_1
    _ = W0 m ρ c (Proc.devRef .tc main_arg5) := by kept_by hostOps0
    _ = m ((c : Thread nD τ).loc main_arg5) := rfl

theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by kept_by hostOps0_4
    _ = W3 m ρ c (Proc.devRef .tc main_arg6) := by kept_by hostOps0_3
    _ = W2 m ρ c (Proc.devRef .tc main_arg6) := by kept_by hostOps0_2
    _ = W1 m ρ c (Proc.devRef .tc main_arg6) := by kept_by hostOps0_1
    _ = W0 m ρ c (Proc.devRef .tc main_arg6) := by kept_by hostOps0
    _ = m ((c : Thread nD τ).loc main_arg6) := rfl

theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by kept_by hostOps0_4
    _ = W3 m ρ c (Proc.devRef .tc main_arg7) := by kept_by hostOps0_3
    _ = W2 m ρ c (Proc.devRef .tc main_arg7) := by kept_by hostOps0_2
    _ = W1 m ρ c (Proc.devRef .tc main_arg7) := by kept_by hostOps0_1
    _ = W0 m ρ c (Proc.devRef .tc main_arg7) := by kept_by hostOps0
    _ = m ((c : Thread nD τ).loc main_arg7) := rfl

theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by kept_by hostOps0_4
    _ = W3 m ρ c (Proc.devRef .tc main_arg8) := by kept_by hostOps0_3
    _ = W2 m ρ c (Proc.devRef .tc main_arg8) := by kept_by hostOps0_2
    _ = W1 m ρ c (Proc.devRef .tc main_arg8) := by kept_by hostOps0_1
    _ = W0 m ρ c (Proc.devRef .tc main_arg8) := by kept_by hostOps0
    _ = m ((c : Thread nD τ).loc main_arg8) := rfl

theorem W6_arg1 (c : Dev nD) : W6 m ρ c (Proc.devRef .tc main_arg1) = m ((c : Thread nD τ).loc main_arg1) :=
  (W6_of_ne m ρ c main_arg1 (by decide)).trans (W5_arg1 m ρ c)

theorem W6_arg2 (c : Dev nD) : W6 m ρ c (Proc.devRef .tc main_arg2) = m ((c : Thread nD τ).loc main_arg2) :=
  (W6_of_ne m ρ c main_arg2 (by decide)).trans (W5_arg2 m ρ c)

theorem W6_arg4 (c : Dev nD) : W6 m ρ c (Proc.devRef .tc main_arg4) = m ((c : Thread nD τ).loc main_arg4) :=
  (W6_of_ne m ρ c main_arg4 (by decide)).trans (W5_arg4 m ρ c)

theorem W6_arg5 (c : Dev nD) : W6 m ρ c (Proc.devRef .tc main_arg5) = m ((c : Thread nD τ).loc main_arg5) :=
  (W6_of_ne m ρ c main_arg5 (by decide)).trans (W5_arg5 m ρ c)

theorem W6_arg6 (c : Dev nD) : W6 m ρ c (Proc.devRef .tc main_arg6) = m ((c : Thread nD τ).loc main_arg6) :=
  (W6_of_ne m ρ c main_arg6 (by decide)).trans (W5_arg6 m ρ c)

theorem W6_arg7 (c : Dev nD) : W6 m ρ c (Proc.devRef .tc main_arg7) = m ((c : Thread nD τ).loc main_arg7) :=
  (W6_of_ne m ρ c main_arg7 (by decide)).trans (W5_arg7 m ρ c)

theorem W6_arg8 (c : Dev nD) : W6 m ρ c (Proc.devRef .tc main_arg8) = m ((c : Thread nD τ).loc main_arg8) :=
  (W6_of_ne m ρ c main_arg8 (by decide)).trans (W5_arg8 m ρ c)

theorem W7_arg1 (c : Dev nD) : W7 m ρ c (Proc.devRef .tc main_arg1) = m ((c : Thread nD τ).loc main_arg1) :=
  (show W7 m ρ c (Proc.devRef .tc main_arg1) = W6 m ρ c (Proc.devRef .tc main_arg1) by kept_by hostOps1).trans (W6_arg1 m ρ c)

theorem W7_arg2 (c : Dev nD) : W7 m ρ c (Proc.devRef .tc main_arg2) = m ((c : Thread nD τ).loc main_arg2) :=
  (show W7 m ρ c (Proc.devRef .tc main_arg2) = W6 m ρ c (Proc.devRef .tc main_arg2) by kept_by hostOps1).trans (W6_arg2 m ρ c)

theorem W7_arg5 (c : Dev nD) : W7 m ρ c (Proc.devRef .tc main_arg5) = m ((c : Thread nD τ).loc main_arg5) :=
  (show W7 m ρ c (Proc.devRef .tc main_arg5) = W6 m ρ c (Proc.devRef .tc main_arg5) by kept_by hostOps1).trans (W6_arg5 m ρ c)

theorem W7_arg6 (c : Dev nD) : W7 m ρ c (Proc.devRef .tc main_arg6) = m ((c : Thread nD τ).loc main_arg6) :=
  (show W7 m ρ c (Proc.devRef .tc main_arg6) = W6 m ρ c (Proc.devRef .tc main_arg6) by kept_by hostOps1).trans (W6_arg6 m ρ c)

theorem W7_arg7 (c : Dev nD) : W7 m ρ c (Proc.devRef .tc main_arg7) = m ((c : Thread nD τ).loc main_arg7) :=
  (show W7 m ρ c (Proc.devRef .tc main_arg7) = W6 m ρ c (Proc.devRef .tc main_arg7) by kept_by hostOps1).trans (W6_arg7 m ρ c)

theorem W7_arg8 (c : Dev nD) : W7 m ρ c (Proc.devRef .tc main_arg8) = m ((c : Thread nD τ).loc main_arg8) :=
  (show W7 m ρ c (Proc.devRef .tc main_arg8) = W6 m ρ c (Proc.devRef .tc main_arg8) by kept_by hostOps1).trans (W6_arg8 m ρ c)

theorem W8_arg1 (c : Dev nD) : W8 m ρ c (Proc.devRef .tc main_arg1) = m ((c : Thread nD τ).loc main_arg1) :=
  (W8_of_ne m ρ c main_arg1 (by decide)).trans (W7_arg1 m ρ c)

theorem W8_arg2 (c : Dev nD) : W8 m ρ c (Proc.devRef .tc main_arg2) = m ((c : Thread nD τ).loc main_arg2) :=
  (W8_of_ne m ρ c main_arg2 (by decide)).trans (W7_arg2 m ρ c)

theorem W8_arg6 (c : Dev nD) : W8 m ρ c (Proc.devRef .tc main_arg6) = m ((c : Thread nD τ).loc main_arg6) :=
  (W8_of_ne m ρ c main_arg6 (by decide)).trans (W7_arg6 m ρ c)

theorem W8_arg7 (c : Dev nD) : W8 m ρ c (Proc.devRef .tc main_arg7) = m ((c : Thread nD τ).loc main_arg7) :=
  (W8_of_ne m ρ c main_arg7 (by decide)).trans (W7_arg7 m ρ c)

theorem W8_arg8 (c : Dev nD) : W8 m ρ c (Proc.devRef .tc main_arg8) = m ((c : Thread nD τ).loc main_arg8) :=
  (W8_of_ne m ρ c main_arg8 (by decide)).trans (W7_arg8 m ρ c)

theorem W9_arg1 (c : Dev nD) : W9 m ρ c (Proc.devRef .tc main_arg1) = m ((c : Thread nD τ).loc main_arg1) :=
  (show W9 m ρ c (Proc.devRef .tc main_arg1) = W8 m ρ c (Proc.devRef .tc main_arg1) by kept_by hostOps2).trans (W8_arg1 m ρ c)

theorem W9_arg2 (c : Dev nD) : W9 m ρ c (Proc.devRef .tc main_arg2) = m ((c : Thread nD τ).loc main_arg2) :=
  (show W9 m ρ c (Proc.devRef .tc main_arg2) = W8 m ρ c (Proc.devRef .tc main_arg2) by kept_by hostOps2).trans (W8_arg2 m ρ c)

theorem W9_arg7 (c : Dev nD) : W9 m ρ c (Proc.devRef .tc main_arg7) = m ((c : Thread nD τ).loc main_arg7) :=
  (show W9 m ρ c (Proc.devRef .tc main_arg7) = W8 m ρ c (Proc.devRef .tc main_arg7) by kept_by hostOps2).trans (W8_arg7 m ρ c)

theorem W9_arg8 (c : Dev nD) : W9 m ρ c (Proc.devRef .tc main_arg8) = m ((c : Thread nD τ).loc main_arg8) :=
  (show W9 m ρ c (Proc.devRef .tc main_arg8) = W8 m ρ c (Proc.devRef .tc main_arg8) by kept_by hostOps2).trans (W8_arg8 m ρ c)

theorem W10_arg1 (c : Dev nD) : W10 m ρ c (Proc.devRef .tc main_arg1) = m ((c : Thread nD τ).loc main_arg1) :=
  (W10_of_ne m ρ c main_arg1 (by decide)).trans (W9_arg1 m ρ c)

theorem W10_arg2 (c : Dev nD) : W10 m ρ c (Proc.devRef .tc main_arg2) = m ((c : Thread nD τ).loc main_arg2) :=
  (W10_of_ne m ρ c main_arg2 (by decide)).trans (W9_arg2 m ρ c)

theorem W10_arg8 (c : Dev nD) : W10 m ρ c (Proc.devRef .tc main_arg8) = m ((c : Thread nD τ).loc main_arg8) :=
  (W10_of_ne m ρ c main_arg8 (by decide)).trans (W9_arg8 m ρ c)

/-! ## The two-column array of degree factors, and the first layer's features -/

theorem W6_scales (c : Dev nD) : W6 m ρ c (Proc.devRef .tc main_v15) = W5 m ρ c (Proc.devRef .tc main_v15) :=
  (W6_arr m ρ c 2).trans (((dat0 (V5 m ρ) c).arrAt_in 2 rfl _).trans (A_eq0 (V5 m ρ) c 2))
theorem W7_scales (c : Dev nD) : W7 m ρ c (Proc.devRef .tc main_v15) = W5 m ρ c (Proc.devRef .tc main_v15) :=
  (show W7 m ρ c (Proc.devRef .tc main_v15) = W6 m ρ c (Proc.devRef .tc main_v15) by kept_by hostOps1).trans (W6_scales m ρ c)
theorem W8_scales (c : Dev nD) : W8 m ρ c (Proc.devRef .tc main_v15) = W5 m ρ c (Proc.devRef .tc main_v15) :=
  ((W8_arr m ρ c 2).trans (((dat1 (V7 m ρ) c).arrAt_in 2 rfl _).trans (A_eq1 (V7 m ρ) c 2))).trans (W7_scales m ρ c)
theorem W9_scales (c : Dev nD) : W9 m ρ c (Proc.devRef .tc main_v15) = W5 m ρ c (Proc.devRef .tc main_v15) :=
  (show W9 m ρ c (Proc.devRef .tc main_v15) = W8 m ρ c (Proc.devRef .tc main_v15) by kept_by hostOps2).trans (W8_scales m ρ c)
theorem W10_scales (c : Dev nD) : W10 m ρ c (Proc.devRef .tc main_v15) = W5 m ρ c (Proc.devRef .tc main_v15) :=
  ((W10_arr m ρ c 2).trans (((dat2 (V9 m ρ) c).arrAt_in 2 rfl _).trans (A_eq2 (V9 m ρ) c 2))).trans (W9_scales m ρ c)
theorem W11_scales (c : Dev nD) : W11 m ρ c (Proc.devRef .tc main_v15) = W5 m ρ c (Proc.devRef .tc main_v15) :=
  (show W11 m ρ c (Proc.devRef .tc main_v15) = W10 m ρ c (Proc.devRef .tc main_v15) by kept_by hostOps3).trans (W10_scales m ρ c)

theorem W9_feat (c : Dev nD) : W9 m ρ c (Proc.devRef .tc main_v30_0) = W8 m ρ c (Proc.devRef .tc main_v30_0) := by
  kept_by hostOps2

end Cert.KernelIdeal.Walk

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«120881_j90460601188826_2_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«120881_j90460601188826_2_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.Spec.lean ====
/-
  The graph network's dense stages as functions of whole arrays, for any number of rows.

  Between two aggregations over the edges, every stage of this network acts on each node's row by itself:
    * a projection  (x · w)(r, c) · d(r)        — a product with a fixed matrix, each row scaled by its node's degree factor;
    * an affine step  a(r, c) · d(r) + b(c)      — each row scaled, a bias row added — with or without a clamp at zero;
    * the alignment  α · hₙ + (1 − α) · hₚ · (‖hₙ(r, ·)‖ / ‖hₚ(r, ·)‖)  — the earlier features rescaled to the later row norm.
  They are stated here once, on the extended reals, with the row count a parameter, so that a block of rows and the
  whole array are values of one function; and each is shown to keep the relation "this block is the stretch of that
  array starting at row o" (`RowsAt`).
-/
import Idealize.ShloMosaic.Lib.ValueIdx
import Idealize.ShloMosaic.PureOps.Ideal.Laws
import proofs.«120881_j90460601188826_2_alg».proof.Proof.LibRowBlocks

noncomputable section

namespace Cert.Gcn

open Idealize.ShloMosaic Idealize.ShloMosaic.ValueIdx Cert.MatProduct Cert.Bridge

/-- An `R` by `C` array of extended reals. -/
abbrev Arr (R C : ℕ) : Type := (⟨2, ![R, C]⟩ : Shape).Idx → EReal

/-- The weight of the later features in the alignment (the single-precision word of 0.62, read exactly). -/
def cNext : EReal := Ideal.ofBits .f32 0x3F1EB852#32
/-- The weight of the rescaled earlier features (the single-precision word of 0.38, read exactly). -/
def cPrev : EReal := Ideal.ofBits .f32 0x3EC28F5C#32

@[simp] theorem rowOf_ix2 {M N : ℕ} (p : Fin M) (j : Fin N) : rowOf (ix2 p j) = p := rfl
@[simp] theorem colOf_ix2 {M N : ℕ} (p : Fin M) (j : Fin N) : colOf (ix2 p j) = j := rfl

/-- The projection: the product with `w`, row `r` scaled by `d r`. -/
def proj {R K C : ℕ} (x : Arr R K) (w : Arr K C) (d : Fin R → EReal) : Arr R C :=
  fun y => prod x w y * d (rowOf y)

/-- The affine step: row `r` scaled by `d r`, then the bias `b` added along the columns. -/
def lin {R C : ℕ} (a : Arr R C) (d : Fin R → EReal) (b : Fin C → EReal) : Arr R C :=
  fun y => a y * d (rowOf y) + b (colOf y)

/-- The affine step clamped below at zero (the zero word of single precision, which reads 0). -/
def act {R C : ℕ} (a : Arr R C) (d : Fin R → EReal) (b : Fin C → EReal) : Arr R C :=
  fun y => max (lin a d b y) (Ideal.ofBits .f32 0x00000000#32)

/-- The Euclidean norm of row `r`. -/
def rowNorm {R C : ℕ} (h : Arr R C) (r : Fin R) : EReal :=
  Ideal.sqrt (∑ j : Fin C, h (ix2 r j) * h (ix2 r j))

/-- The alignment of the earlier features `hp` to the later ones `hn`, row by row. -/
def mix {R C : ℕ} (hp hn : Arr R C) : Arr R C :=
  fun y => cNext * hn y + cPrev * (hp y * Ideal.div (rowNorm hn (rowOf y)) (rowNorm hp (rowOf y)))

variable {M R K C : ℕ} {o : ℕ}

/-- Two row-indexed vectors agree along the stretch starting at `o`. -/
def VecAt (o : ℕ) (d : Fin M → EReal) (d' : Fin R → EReal) : Prop :=
  ∀ (p : Fin M) (r : Fin R), r.val = o + p.val → d p = d' r

theorem rowsAt_proj {x : Arr M K} {x' : Arr R K} (hx : RowsAt o x x') (w : Arr K C)
    {d : Fin M → EReal} {d' : Fin R → EReal} (hd : VecAt o d d') :
    RowsAt o (proj x w d) (proj x' w d') := fun p r j e => by
  show prod x w (ix2 p j) * d p = prod x' w (ix2 r j) * d' r
  rw [RowsAt.prod hx w p r j e, hd p r e]

theorem rowsAt_lin {a : Arr M C} {a' : Arr R C} (ha : RowsAt o a a')
    {d : Fin M → EReal} {d' : Fin R → EReal} (hd : VecAt o d d') (b : Fin C → EReal) :
    RowsAt o (lin a d b) (lin a' d' b) := fun p r j e => by
  show a (ix2 p j) * d p + b j = a' (ix2 r j) * d' r + b j
  rw [ha p r j e, hd p r e]

theorem rowsAt_act {a : Arr M C} {a' : Arr R C} (ha : RowsAt o a a')
    {d : Fin M → EReal} {d' : Fin R → EReal} (hd : VecAt o d d') (b : Fin C → EReal) :
    RowsAt o (act a d b) (act a' d' b) := fun p r j e => by
  show max (lin a d b (ix2 p j)) _ = max (lin a' d' b (ix2 r j)) _
  rw [rowsAt_lin ha hd b p r j e]

theorem rowNorm_eq {h : Arr M C} {h' : Arr R C} (hh : RowsAt o h h') (p : Fin M) (r : Fin R) (e : r.val = o + p.val) :
    rowNorm h p = rowNorm h' r := by
  unfold rowNorm
  exact congrArg Ideal.sqrt (Finset.sum_congr rfl fun j _ => by rw [hh p r j e])

theorem rowsAt_mix {hp hn : Arr M C} {hp' hn' : Arr R C} (h1 : RowsAt o hp hp') (h2 : RowsAt o hn hn') :
    RowsAt o (mix hp hn) (mix hp' hn') := fun p r j e => by
  show cNext * hn (ix2 p j) + cPrev * (hp (ix2 p j) * Ideal.div (rowNorm hn p) (rowNorm hp p))
     = cNext * hn' (ix2 r j) + cPrev * (hp' (ix2 r j) * Ideal.div (rowNorm hn' r) (rowNorm hp' r))
  rw [h1 p r j e, h2 p r j e, rowNorm_eq h1 p r e, rowNorm_eq h2 p r e]

end Cert.Gcn

end
-- ==== Proof.Bodies.lean ====
import proofs.«120881_j90460601188826_2_alg».proof.Proof.Gen.KernelIdeal.Frame
import proofs.«120881_j90460601188826_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Bodies

open Idealize.ShloMosaic Idealize.ShloMosaic.TcCoe Idealize.ShloMosaic.ValueIdx Idealize.SL.Sem
open Cert.KernelIdeal Cert.KernelIdeal.Gen Cert.Gcn Cert.MatProduct

/-! # Each kernel body's stored value is a stage of the network applied to the blocks it loaded

A body loads its blocks whole (the two degree factors as the two columns of one [5000, 2] block), and what it stores
is, index by index, the projection / affine step / alignment of `Spec.lean` at those blocks: the matrix unit
accumulating into zero is the plain product, a [5000, 1] column spread along the lanes reads its row's entry, a
[1, C] bias row spread down the rows reads its column's entry, and a lane sum is the sum over the row. -/

theorem hz : (![0, 0] : Fin 2 → Nat) = fun _ => 0 := funext fun a => by fin_cases a <;> rfl

/-- A [5000, 1] column cut out of a [5000, 2] block at column `o`, read at row `p`. -/
theorem ld_col (x : Vec Ideal S5000x2 .f32) (o : Nat) (inb) (p : Fin 5000) (q : Fin 1) (ho : o < 2) :
    View.ld x (Rect.unit (s := S5000x2) ![0, o] S5000x1.size inb) (ix2 p q) = x (ix2 p ⟨o, ho⟩) := by
  show x ((Rect.unit (s := S5000x2) ![0, o] S5000x1.size inb).emb (ix2 p q)) = _
  refine congrArg x (funext fun a => Fin.ext ?_)
  match a with
  | ⟨0, _⟩ => show 0 + 1 * p.val = p.val; omega
  | ⟨1, _⟩ => show o + 1 * q.val = o; have := q.isLt; omega

/-- A column spread along the lanes reads, at (p, c), the column's entry p. -/
theorem spread_col {a b : ℕ} (x : (⟨2, ![a, 1]⟩ : Shape).Idx → EReal)
    (h : (⟨2, ![a, 1]⟩ : Shape).Broadcasts ⟨2, ![a, b]⟩) (p : Fin a) (c : Fin b) :
    broadcastTo ⟨2, ![a, b]⟩ x h (ix2 p c) = x (ix2 p 0) := by
  refine broadcastTo_apply x h (ix2 p c) (ix2 p 0) fun d => ?_
  match d with
  | ⟨0, _⟩ =>
    show p.val = if a = 1 then 0 else p.val
    split
    · have := p.isLt; omega
    · rfl
  | ⟨1, _⟩ => show (0 : ℕ) = if (1 : ℕ) = 1 then 0 else _; rw [if_pos rfl]

/-- A row spread down the rows reads, at (p, c), the row's entry c. -/
theorem spread_row {a b : ℕ} (x : (⟨2, ![1, b]⟩ : Shape).Idx → EReal)
    (h : (⟨2, ![1, b]⟩ : Shape).Broadcasts ⟨2, ![a, b]⟩) (p : Fin a) (c : Fin b) :
    broadcastTo ⟨2, ![a, b]⟩ x h (ix2 p c) = x (ix2 0 c) := by
  refine broadcastTo_apply x h (ix2 p c) (ix2 0 c) fun d => ?_
  match d with
  | ⟨0, _⟩ => show (0 : ℕ) = if (1 : ℕ) = 1 then 0 else _; rw [if_pos rfl]
  | ⟨1, _⟩ =>
    show c.val = if b = 1 then 0 else c.val
    split
    · have := c.isLt; omega
    · rfl

/-- A vector regarded as a column reads, at (p, 0), the vector's entry p. -/
theorem as_col {a : ℕ} (v : (⟨1, ![a]⟩ : Shape).Idx → EReal) (h : (⟨1, ![a]⟩ : Shape).ShapeCasts ⟨2, ![a, 1]⟩)
    (p : Fin a) (q : Fin 1) : shapeCast ⟨2, ![a, 1]⟩ v h (ix2 p q) = v (ix1 p) := by
  refine shapeCast_apply v h (ix2 p q) (ix1 p) ?_
  rw [Shape.rowMajor_val_one, Shape.rowMajor_val_two]
  show p.val = p.val * 1 + q.val
  have := q.isLt; omega

/-- Region 0: the product with the weights, each row scaled by its first degree factor. -/
theorem body0 (x0 : Vec Ideal S5000x128 .f32) (x1 : Vec Ideal S128x128 .f32) (x2 : Vec Ideal S5000x2 .f32) :
    k0_pay1 (View.ld x0 r0_0) (View.ld x1 r0_1) (View.ld x2 r0_2) = proj x0 x1 (fun p => x2 (ix2 p 0)) := by
  rw [View.ld_unit_zero hz, View.ld_unit_zero hz]
  funext y
  obtain ⟨p, c, rfl⟩ : ∃ (p : Fin 5000) (c : Fin 128), y = ix2 p c := ⟨y 0, y 1, eq_ix2 y⟩
  unfold k0_pay1
  show matmul (F := Ideal) dot_S5000x128_S128x128_S5000x128_1_0_0_1_n_n none _ _ _ (ix2 p c) * broadcastTo S5000x128 _ _ (ix2 p c)
    = prod x0 x1 (ix2 p c) * x2 (ix2 p 0)
  rw [shapeCast_self, spread_col, ld_col x2 0 _ p 0 (by decide)]
  exact congrArg (· * _) (Cert.Sage.matmul_plain_zero_apply none _ _ p c)

/-- The affine step on a block, clamped at zero, as the body of regions 1 and 2 computes it. -/
theorem act_eq (v2 : Vec Ideal S5000x1 .f32) (v4 : Vec Ideal S5000x128 .f32) (v8 : Vec Ideal S1x128 .f32) :
    k1_pay1 v2 v4 v8 = act v4 (fun p => v2 (ix2 p 0)) (fun j => v8 (ix2 0 j)) := by
  funext y
  obtain ⟨p, c, rfl⟩ : ∃ (p : Fin 5000) (c : Fin 128), y = ix2 p c := ⟨y 0, y 1, eq_ix2 y⟩
  unfold k1_pay1
  show max (shapeCast S5000x128 v4 _ (ix2 p c) * broadcastTo S5000x128 _ _ (ix2 p c) + broadcastTo S5000x128 _ _ (ix2 p c)) _
    = max (v4 (ix2 p c) * v2 (ix2 p 0) + v8 (ix2 0 c)) _
  rw [shapeCast_self, shapeCast_self, shapeCast_self, spread_col, spread_row]
  rfl

/-- Region 1, first output: the clamped affine step. -/
theorem body1a (x0 : Vec Ideal S5000x128 .f32) (x1 : Vec Ideal S1x128 .f32) (x2 : Vec Ideal S5000x2 .f32) :
    k1_pay1 (View.ld x2 r1_1) (View.ld x0 r1_2) (View.ld x1 r1_3)
      = act x0 (fun p => x2 (ix2 p 1)) (fun j => x1 (ix2 0 j)) := by
  rw [act_eq, View.ld_unit_zero hz, View.ld_unit_zero hz]
  exact congrArg (fun d => act x0 d _) (funext fun p => ld_col x2 1 _ p 0 (by decide))

/-- Region 1, second output: the projection of the first output. -/
theorem body1b (x0 : Vec Ideal S5000x128 .f32) (x1 : Vec Ideal S1x128 .f32) (x2 : Vec Ideal S5000x2 .f32)
    (x3 : Vec Ideal S128x128 .f32) :
    k1_pay2 (View.ld x2 r1_0) (View.ld x2 r1_1) (View.ld x0 r1_2) (View.ld x1 r1_3) (View.ld x3 r1_4)
      = proj (act x0 (fun p => x2 (ix2 p 1)) (fun j => x1 (ix2 0 j))) x3 (fun p => x2 (ix2 p 0)) := by
  funext y
  obtain ⟨p, c, rfl⟩ : ∃ (p : Fin 5000) (c : Fin 128), y = ix2 p c := ⟨y 0, y 1, eq_ix2 y⟩
  unfold k1_pay2
  rw [body1a, View.ld_unit_zero hz]
  show matmul (F := Ideal) dot_S5000x128_S128x128_S5000x128_1_0_0_1_n_n none _ _ _ (ix2 p c) * broadcastTo S5000x128 _ _ (ix2 p c)
    = prod _ x3 (ix2 p c) * x2 (ix2 p 0)
  rw [shapeCast_self, spread_col, ld_col x2 0 _ p 0 (by decide)]
  exact congrArg (· * _) (Cert.Sage.matmul_plain_zero_apply none _ _ p c)

/-- Region 3: the affine step, not clamped. -/
theorem body3 (x0 : Vec Ideal S5000x40 .f32) (x1 : Vec Ideal S1x40 .f32) (x2 : Vec Ideal S5000x2 .f32) :
    k3_pay1 (View.ld x2 r3_0) (View.ld x0 r3_1) (View.ld x1 r3_2)
      = lin x0 (fun p => x2 (ix2 p 1)) (fun j => x1 (ix2 0 j)) := by
  rw [View.ld_unit_zero hz, View.ld_unit_zero hz]
  funext y
  obtain ⟨p, c, rfl⟩ : ∃ (p : Fin 5000) (c : Fin 40), y = ix2 p c := ⟨y 0, y 1, eq_ix2 y⟩
  unfold k3_pay1
  show shapeCast S5000x40 x0 _ (ix2 p c) * broadcastTo S5000x40 _ _ (ix2 p c) + broadcastTo S5000x40 _ _ (ix2 p c)
    = x0 (ix2 p c) * x2 (ix2 p 1) + x1 (ix2 0 c)
  rw [shapeCast_self, shapeCast_self, shapeCast_self, spread_col, spread_row, ld_col x2 1 _ p 0 (by decide)]
  rfl

/-- The Euclidean norm of each row of a block as the body takes it: the lane sum of the squares, regarded as a
    column, under the square root. -/
theorem norm_eq (h : Vec Ideal S5000x128 .f32) (hφ : FKind.Formats FTy.f32)
    (hacc : (0x00000000#32 : BitVec FTy.f32.bits) = FKind.add.neutral FTy.f32 hφ) (p : Fin 5000) (q : Fin 1) :
    sqrt (shapeCast S5000x1 (multiReduction (F := Ideal) .add [1] S5000 (mulf h h) 0x00000000#32 reduces_S5000x128_S5000 hφ hacc)
        shapeCasts_S5000_S5000x1) (ix2 p q) = rowNorm h p := by
  show Ideal.sqrt (shapeCast S5000x1 _ _ (ix2 p q)) = Ideal.sqrt _
  rw [as_col]
  refine congrArg Ideal.sqrt
    ((Ideal.multiReduction_add_single (mulf h h) 0x00000000#32 reduces_S5000x128_S5000 hφ hacc (ix1 p)).trans ?_)
  refine Finset.sum_congr rfl fun k _ => ?_
  have e : reduces_S5000x128_S5000.lift (ix1 p) k = ix2 p k :=
    funext fun a => Fin.ext (by match a with | ⟨0, _⟩ => rfl | ⟨1, _⟩ => rfl)
  rw [e]
  rfl

/-- The alignment on a block as region 2's body computes it, at an entry. -/
theorem mix_at (hp hn : Vec Ideal S5000x128 .f32) (hφ : FKind.Formats FTy.f32)
    (hacc : (0x00000000#32 : BitVec FTy.f32.bits) = FKind.add.neutral FTy.f32 hφ) (hφ' : FKind.Formats FTy.f32)
    (hacc' : (0x00000000#32 : BitVec FTy.f32.bits) = FKind.add.neutral FTy.f32 hφ') (p : Fin 5000) (k : Fin 128) :
    addf (mulf (broadcast S5000x128 (Scalar.ofBits (F := Ideal) .f32 0x3F1EB852#32)) hn)
      (mulf (broadcast S5000x128 (Scalar.ofBits (F := Ideal) .f32 0x3EC28F5C#32))
        (mulf hp (broadcastTo S5000x128
          (divf
            (sqrt (shapeCast S5000x1 (multiReduction (F := Ideal) .add [1] S5000 (mulf hn hn) 0x00000000#32 reduces_S5000x128_S5000 hφ hacc) shapeCasts_S5000_S5000x1))
            (sqrt (shapeCast S5000x1 (multiReduction (F := Ideal) .add [1] S5000 (mulf hp hp) 0x00000000#32 reduces_S5000x128_S5000 hφ' hacc') shapeCasts_S5000_S5000x1)))
          broadcasts_S5000x1_S5000x128))) (ix2 p k)
      = mix hp hn (ix2 p k) := by
  show cNext * hn (ix2 p k) + cPrev * (hp (ix2 p k) * broadcastTo S5000x128 _ _ (ix2 p k))
    = cNext * hn (ix2 p k) + cPrev * (hp (ix2 p k) * Ideal.div (rowNorm hn p) (rowNorm hp p))
  rw [spread_col]
  refine congrArg (fun z => cNext * hn (ix2 p k) + cPrev * (hp (ix2 p k) * z)) ?_
  exact congrArg₂ Ideal.div (norm_eq hn hφ hacc p 0) (norm_eq hp hφ' hacc' p 0)

/-- Region 2: the later features by the clamped affine step, aligned with the earlier ones, then projected. -/
theorem body2 (x0 : Vec Ideal S5000x128 .f32) (x1 : Vec Ideal S1x128 .f32) (x2 : Vec Ideal S5000x2 .f32)
    (x3 : Vec Ideal S5000x128 .f32) (x4 : Vec Ideal S128x40 .f32) :
    k2_pay1 (View.ld x2 r2_0) (View.ld x2 r2_1) (View.ld x0 r2_2) (View.ld x1 r2_3) (View.ld x3 r2_2) (View.ld x4 r2_4)
      = proj (mix x3 (act x0 (fun p => x2 (ix2 p 1)) (fun j => x1 (ix2 0 j)))) x4 (fun p => x2 (ix2 p 0)) := by
  rw [← body1a x0 x1 x2]
  rw [View.ld_unit_zero hz _ x0, View.ld_unit_zero hz _ x1, View.ld_unit_zero hz _ x3, View.ld_unit_zero hz _ x4]
  funext y
  obtain ⟨p, c, rfl⟩ : ∃ (p : Fin 5000) (c : Fin 40), y = ix2 p c := ⟨y 0, y 1, eq_ix2 y⟩
  unfold k2_pay1
  show matmul (F := Ideal) dot_S5000x128_S128x40_S5000x40_1_0_0_1_n_n none _ _ _ (ix2 p c) * broadcastTo S5000x40 _ _ (ix2 p c)
    = prod _ x4 (ix2 p c) * x2 (ix2 p 0)
  refine congrArg₂ (· * ·) ((Cert.Sage.matmul_plain_zero_apply none _ _ p c).trans ?_) ?_
  · refine Finset.sum_congr rfl fun k _ => congrArg (· * _) ?_
    refine (mix_at (shapeCast S5000x128 x3 shapeCasts_S5000x128_S5000x128) (k1_pay1 (View.ld x2 r2_1) x0 x1) _ _ _ _ p k).trans ?_
    rw [shapeCast_self]
    rfl
  · rw [spread_col, shapeCast_self, ld_col x2 0 _ p 0 (by decide)]
    rfl

end Cert.KernelIdeal.Bodies

end
-- ==== Proof.Arrays.lean ====
import proofs.«120881_j90460601188826_2_alg».proof.Proof.Bodies

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.Gcn Cert.MatProduct Cert.Bridge Cert.KernelIdeal.Bodies
open Idealize.ShloMosaic.Pipeline (Dat)

variable (V : (c : Dev nD) → (b : Ref sig .tc) → Buf (Elt Ideal) ((c : Thread nD τ).loc b))

/-! # From the blocks a grid point writes back to the whole array a region leaves

Each of the four regions runs over 20 grid points; point t stages rows 5000·t … 5000·t + 4999 of every row-blocked
array (the features, the aggregate, the two-column array of degree factors) and the whole of the small ones (weights,
bias row), and writes back rows 5000·t … of its outputs. Since every stage acts row by row (`Spec.lean`), what point t
writes back is that stretch of rows of the stage applied to the WHOLE arrays; the 20 stretches tile the rows, so the
output array ends as the stage of the arrays the region found. All of it is stated for any contents `V` at the
region's entry. -/

theorem lt20_0 (t : Fin cfg0.N) : t.val < 20 := lt_of_lt_of_eq t.isLt N_0
theorem lt20_1 (t : Fin cfg1.N) : t.val < 20 := lt_of_lt_of_eq t.isLt N_1
theorem lt20_2 (t : Fin cfg2.N) : t.val < 20 := lt_of_lt_of_eq t.isLt N_2
theorem lt20_3 (t : Fin cfg3.N) : t.val < 20 := lt_of_lt_of_eq t.isLt N_3

/-! ## Region 0 -/

theorem idx0_0 : ∀ t : Fin cfg0.N, win0_0.index t (0 : Fin 2) = t.val ∧ win0_0.index t (1 : Fin 2) = 0 :=
  (by decide +kernel : ∀ t : Fin grid0.N, _)

/-- Window 0's block at point t is rows 5000·t … of its array. -/
theorem rows0_0 (c : Dev nD) (t : Fin cfg0.N) :
    RowsAt (M := 5000) (R := 100000) (N := 128) (5000 * t.val) (iblk0 V c 0 t) (V c (Pipeline.arrRef spec0 0)) := by
  intro p r j e
  obtain ⟨e0, e1⟩ := idx0_0 t
  show V c (Pipeline.arrRef spec0 0) (((cfg0.win 0).blk t).view.emb (ix2 p j)) = V c (Pipeline.arrRef spec0 0) (ix2 r j)
  refine congrArg (V c (Pipeline.arrRef spec0 0)) (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

theorem idx0_1 : ∀ t : Fin cfg0.N, win0_1.index t (0 : Fin 2) = 0 ∧ win0_1.index t (1 : Fin 2) = 0 :=
  (by decide +kernel : ∀ t : Fin grid0.N, _)

/-- Window 1's block at every point is its whole array. -/
theorem whole0_1 (c : Dev nD) (t : Fin cfg0.N) : iblk0 V c 1 t = V c (Pipeline.arrRef spec0 1) := by
  funext y
  obtain ⟨e0, e1⟩ := idx0_1 t
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem idx0_2 : ∀ t : Fin cfg0.N, win0_2.index t (0 : Fin 2) = t.val ∧ win0_2.index t (1 : Fin 2) = 0 :=
  (by decide +kernel : ∀ t : Fin grid0.N, _)

/-- Window 2's block at point t is rows 5000·t … of its array. -/
theorem rows0_2 (c : Dev nD) (t : Fin cfg0.N) :
    RowsAt (M := 5000) (R := 100000) (N := 2) (5000 * t.val) (iblk0 V c 2 t) (V c (Pipeline.arrRef spec0 2)) := by
  intro p r j e
  obtain ⟨e0, e1⟩ := idx0_2 t
  show V c (Pipeline.arrRef spec0 2) (((cfg0.win 2).blk t).view.emb (ix2 p j)) = V c (Pipeline.arrRef spec0 2) (ix2 r j)
  refine congrArg (V c (Pipeline.arrRef spec0 2)) (funext fun a => Fin.ext ?_)
  match a with
  | ⟨0, _⟩ => show win0_2.index t (0 : Fin 2) * 5000 + 1 * p.val = r.val; omega
  | ⟨1, _⟩ => show win0_2.index t (1 : Fin 2) * 2 + 1 * j.val = j.val; omega

theorem idx0_3 : ∀ t : Fin cfg0.N, win0_3.index t (0 : Fin 2) = t.val ∧ win0_3.index t (1 : Fin 2) = 0 :=
  (by decide +kernel : ∀ t : Fin grid0.N, _)

/-! ## Region 1 -/

theorem idx1_0 : ∀ t : Fin cfg1.N, win1_0.index t (0 : Fin 2) = t.val ∧ win1_0.index t (1 : Fin 2) = 0 :=
  (by decide +kernel : ∀ t : Fin grid1.N, _)

/-- Window 0's block at point t is rows 5000·t … of its array. -/
theorem rows1_0 (c : Dev nD) (t : Fin cfg1.N) :
    RowsAt (M := 5000) (R := 100000) (N := 128) (5000 * t.val) (iblk1 V c 0 t) (V c (Pipeline.arrRef spec1 0)) := by
  intro p r j e
  obtain ⟨e0, e1⟩ := idx1_0 t
  show V c (Pipeline.arrRef spec1 0) (((cfg1.win 0).blk t).view.emb (ix2 p j)) = V c (Pipeline.arrRef spec1 0) (ix2 r j)
  refine congrArg (V c (Pipeline.arrRef spec1 0)) (funext fun a => Fin.ext ?_)
  match a with
  | ⟨0, _⟩ => show win1_0.index t (0 : Fin 2) * 5000 + 1 * p.val = r.val; omega
  | ⟨1, _⟩ => show win1_0.index t (1 : Fin 2) * 128 + 1 * j.val = j.val; omega

theorem idx1_1 : ∀ t : Fin cfg1.N, win1_1.index t (0 : Fin 2) = 0 ∧ win1_1.index t (1 : Fin 2) = 0 :=
  (by decide +kernel : ∀ t : Fin grid1.N, _)

/-- Window 1's block at every point is its whole array. -/
theorem whole1_1 (c : Dev nD) (t : Fin cfg1.N) : iblk1 V c 1 t = V c (Pipeline.arrRef spec1 1) := by
  funext y
  obtain ⟨e0, e1⟩ := idx1_1 t
  show V c (Pipeline.arrRef spec1 1) (((cfg1.win 1).blk t).view.emb y) = V c (Pipeline.arrRef spec1 1) y
  refine congrArg (V c (Pipeline.arrRef spec1 1)) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

theorem idx1_2 : ∀ t : Fin cfg1.N, win1_2.index t (0 : Fin 2) = t.val ∧ win1_2.index t (1 : Fin 2) = 0 :=
  (by decide +kernel : ∀ t : Fin grid1.N, _)

/-- Window 2's block at point t is rows 5000·t … of its array. -/
theorem rows1_2 (c : Dev nD) (t : Fin cfg1.N) :
    RowsAt (M := 5000) (R := 100000) (N := 2) (5000 * t.val) (iblk1 V c 2 t) (V c (Pipeline.arrRef spec1 2)) := by
  intro p r j e
  obtain ⟨e0, e1⟩ := idx1_2 t
  show V c (Pipeline.arrRef spec1 2) (((cfg1.win 2).blk t).view.emb (ix2 p j)) = V c (Pipeline.arrRef spec1 2) (ix2 r j)
  refine congrArg (V c (Pipeline.arrRef spec1 2)) (funext fun a => Fin.ext ?_)
  match a with
  | ⟨0, _⟩ => show win1_2.index t (0 : Fin 2) * 5000 + 1 * p.val = r.val; omega
  | ⟨1, _⟩ => show win1_2.index t (1 : Fin 2) * 2 + 1 * j.val = j.val; omega

theorem idx1_3 : ∀ t : Fin cfg1.N, win1_3.index t (0 : Fin 2) = 0 ∧ win1_3.index t (1 : Fin 2) = 0 :=
  (by decide +kernel : ∀ t : Fin grid1.N, _)

/-- Window 3's block at every point is its whole array. -/
theorem whole1_3 (c : Dev nD) (t : Fin cfg1.N) : iblk1 V c 3 t = V c (Pipeline.arrRef spec1 3) := by
  funext y
  obtain ⟨e0, e1⟩ := idx1_3 t
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem idx1_4 : ∀ t : Fin cfg1.N, win1_4.index t (0 : Fin 2) = t.val ∧ win1_4.index t (1 : Fin 2) = 0 :=
  (by decide +kernel : ∀ t : Fin grid1.N, _)

theorem idx1_5 : ∀ t : Fin cfg1.N, win1_5.index t (0 : Fin 2) = t.val ∧ win1_5.index t (1 : Fin 2) = 0 :=
  (by decide +kernel : ∀ t : Fin grid1.N, _)

/-! ## Region 2 -/

theorem idx2_0 : ∀ t : Fin cfg2.N, win2_0.index t (0 : Fin 2) = t.val ∧ win2_0.index t (1 : Fin 2) = 0 :=
  (by decide +kernel : ∀ t : Fin grid2.N, _)

/-- Window 0's block at point t is rows 5000·t … of its array. -/
theorem rows2_0 (c : Dev nD) (t : Fin cfg2.N) :
    RowsAt (M := 5000) (R := 100000) (N := 128) (5000 * t.val) (iblk2 V c 0 t) (V c (Pipeline.arrRef spec2 0)) := by
  intro p r j e
  obtain ⟨e0, e1⟩ := idx2_0 t
  show V c (Pipeline.arrRef spec2 0) (((cfg2.win 0).blk t).view.emb (ix2 p j)) = V c (Pipeline.arrRef spec2 0) (ix2 r j)
  refine congrArg (V c (Pipeline.arrRef spec2 0)) (funext fun a => Fin.ext ?_)
  match a with
  | ⟨0, _⟩ => show win2_0.index t (0 : Fin 2) * 5000 + 1 * p.val = r.val; omega
  | ⟨1, _⟩ => show win2_0.index t (1 : Fin 2) * 128 + 1 * j.val = j.val; omega

theorem idx2_1 : ∀ t : Fin cfg2.N, win2_1.index t (0 : Fin 2) = 0 ∧ win2_1.index t (1 : Fin 2) = 0 :=
  (by decide +kernel : ∀ t : Fin grid2.N, _)

/-- Window 1's block at every point is its whole array. -/
theorem whole2_1 (c : Dev nD) (t : Fin cfg2.N) : iblk2 V c 1 t = V c (Pipeline.arrRef spec2 1) := by
  funext y
  obtain ⟨e0, e1⟩ := idx2_1 t
  show V c (Pipeline.arrRef spec2 1) (((cfg2.win 1).blk t).view.emb y) = V c (Pipeline.arrRef spec2 1) y
  refine congrArg (V c (Pipeline.arrRef spec2 1)) (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

theorem idx2_2 : ∀ t : Fin cfg2.N, win2_2.index t (0 : Fin 2) = t.val ∧ win2_2.index t (1 : Fin 2) = 0 :=
  (by decide +kernel : ∀ t : Fin grid2.N, _)

/-- Window 2's block at point t is rows 5000·t … of its array. -/
theorem rows2_2 (c : Dev nD) (t : Fin cfg2.N) :
    RowsAt (M := 5000) (R := 100000) (N := 2) (5000 * t.val) (iblk2 V c 2 t) (V c (Pipeline.arrRef spec2 2)) := by
  intro p r j e
  obtain ⟨e0, e1⟩ := idx2_2 t
  show V c (Pipeline.arrRef spec2 2) (((cfg2.win 2).blk t).view.emb (ix2 p j)) = V c (Pipeline.arrRef spec2 2) (ix2 r j)
  refine congrArg (V c (Pipeline.arrRef spec2 2)) (funext fun a => Fin.ext ?_)
  match a with
  | ⟨0, _⟩ => show win2_2.index t (0 : Fin 2) * 5000 + 1 * p.val = r.val; omega
  | ⟨1, _⟩ => show win2_2.index t (1 : Fin 2) * 2 + 1 * j.val = j.val; omega

theorem idx2_3 : ∀ t : Fin cfg2.N, win2_3.index t (0 : Fin 2) = t.val ∧ win2_3.index t (1 : Fin 2) = 0 :=
  (by decide +kernel : ∀ t : Fin grid2.N, _)

/-- Window 3's block at point t is rows 5000·t … of its array. -/
theorem rows2_3 (c : Dev nD) (t : Fin cfg2.N) :
    RowsAt (M := 5000) (R := 100000) (N := 128) (5000 * t.val) (iblk2 V c 3 t) (V c (Pipeline.arrRef spec2 3)) := by
  intro p r j e
  obtain ⟨e0, e1⟩ := idx2_3 t
  show V c (Pipeline.arrRef spec2 3) (((cfg2.win 3).blk t).view.emb (ix2 p j)) = V c (Pipeline.arrRef spec2 3) (ix2 r j)
  refine congrArg (V c (Pipeline.arrRef spec2 3)) (funext fun a => Fin.ext ?_)
  match a with
  | ⟨0, _⟩ => show win2_3.index t (0 : Fin 2) * 5000 + 1 * p.val = r.val; omega
  | ⟨1, _⟩ => show win2_3.index t (1 : Fin 2) * 128 + 1 * j.val = j.val; omega

theorem idx2_4 : ∀ t : Fin cfg2.N, win2_4.index t (0 : Fin 2) = 0 ∧ win2_4.index t (1 : Fin 2) = 0 :=
  (by decide +kernel : ∀ t : Fin grid2.N, _)

/-- Window 4's block at every point is its whole array. -/
theorem whole2_4 (c : Dev nD) (t : Fin cfg2.N) : iblk2 V c 4 t = V c (Pipeline.arrRef spec2 4) := by
  funext y
  obtain ⟨e0, e1⟩ := idx2_4 t
  show V c (Pipeline.arrRef spec2 4) (((cfg2.win 4).blk t).view.emb y) = V c (Pipeline.arrRef spec2 4) y
  refine congrArg (V c (Pipeline.arrRef spec2 4)) (funext fun a => Fin.ext ?_)
  match a with
  | ⟨0, _⟩ => show win2_4.index t (0 : Fin 2) * 128 + 1 * (y 0).val = (y 0).val; omega
  | ⟨1, _⟩ => show win2_4.index t (1 : Fin 2) * 40 + 1 * (y 1).val = (y 1).val; omega

theorem idx2_5 : ∀ t : Fin cfg2.N, win2_5.index t (0 : Fin 2) = t.val ∧ win2_5.index t (1 : Fin 2) = 0 :=
  (by decide +kernel : ∀ t : Fin grid2.N, _)

/-! ## Region 3 -/

theorem idx3_0 : ∀ t : Fin cfg3.N, win3_0.index t (0 : Fin 2) = t.val ∧ win3_0.index t (1 : Fin 2) = 0 :=
  (by decide +kernel : ∀ t : Fin grid3.N, _)

/-- Window 0's block at point t is rows 5000·t … of its array. -/
theorem rows3_0 (c : Dev nD) (t : Fin cfg3.N) :
    RowsAt (M := 5000) (R := 100000) (N := 40) (5000 * t.val) (iblk3 V c 0 t) (V c (Pipeline.arrRef spec3 0)) := by
  intro p r j e
  obtain ⟨e0, e1⟩ := idx3_0 t
  show V c (Pipeline.arrRef spec3 0) (((cfg3.win 0).blk t).view.emb (ix2 p j)) = V c (Pipeline.arrRef spec3 0) (ix2 r j)
  refine congrArg (V c (Pipeline.arrRef spec3 0)) (funext fun a => Fin.ext ?_)
  match a with
  | ⟨0, _⟩ => show win3_0.index t (0 : Fin 2) * 5000 + 1 * p.val = r.val; omega
  | ⟨1, _⟩ => show win3_0.index t (1 : Fin 2) * 40 + 1 * j.val = j.val; omega

theorem idx3_1 : ∀ t : Fin cfg3.N, win3_1.index t (0 : Fin 2) = 0 ∧ win3_1.index t (1 : Fin 2) = 0 :=
  (by decide +kernel : ∀ t : Fin grid3.N, _)

/-- Window 1's block at every point is its whole array. -/
theorem whole3_1 (c : Dev nD) (t : Fin cfg3.N) : iblk3 V c 1 t = V c (Pipeline.arrRef spec3 1) := by
  funext y
  obtain ⟨e0, e1⟩ := idx3_1 t
  show V c (Pipeline.arrRef spec3 1) (((cfg3.win 1).blk t).view.emb y) = V c (Pipeline.arrRef spec3 1) y
  refine congrArg (V c (Pipeline.arrRef spec3 1)) (funext fun a => Fin.ext ?_)
  match a with
  | ⟨0, _⟩ => show win3_1.index t (0 : Fin 2) * 1 + 1 * (y 0).val = (y 0).val; omega
  | ⟨1, _⟩ => show win3_1.index t (1 : Fin 2) * 40 + 1 * (y 1).val = (y 1).val; omega

theorem idx3_2 : ∀ t : Fin cfg3.N, win3_2.index t (0 : Fin 2) = t.val ∧ win3_2.index t (1 : Fin 2) = 0 :=
  (by decide +kernel : ∀ t : Fin grid3.N, _)

/-- Window 2's block at point t is rows 5000·t … of its array. -/
theorem rows3_2 (c : Dev nD) (t : Fin cfg3.N) :
    RowsAt (M := 5000) (R := 100000) (N := 2) (5000 * t.val) (iblk3 V c 2 t) (V c (Pipeline.arrRef spec3 2)) := by
  intro p r j e
  obtain ⟨e0, e1⟩ := idx3_2 t
  show V c (Pipeline.arrRef spec3 2) (((cfg3.win 2).blk t).view.emb (ix2 p j)) = V c (Pipeline.arrRef spec3 2) (ix2 r j)
  refine congrArg (V c (Pipeline.arrRef spec3 2)) (funext fun a => Fin.ext ?_)
  match a with
  | ⟨0, _⟩ => show win3_2.index t (0 : Fin 2) * 5000 + 1 * p.val = r.val; omega
  | ⟨1, _⟩ => show win3_2.index t (1 : Fin 2) * 2 + 1 * j.val = j.val; omega

theorem idx3_3 : ∀ t : Fin cfg3.N, win3_3.index t (0 : Fin 2) = t.val ∧ win3_3.index t (1 : Fin 2) = 0 :=
  (by decide +kernel : ∀ t : Fin grid3.N, _)

/-! ## What each region leaves, as a stage of the arrays it found -/

/-- Column `o` of the two-column array of degree factors, as a vector over the rows. -/
def colOf2 (s : Arr 100000 2) (o : Fin 2) : Fin 100000 → EReal := fun r => s (ix2 r o)
/-- The one row of a [1, C] array, as a vector over the columns. -/
def rowOf1 {C : ℕ} (b : Arr 1 C) : Fin C → EReal := fun j => b (ix2 0 j)

def G0 (c : Dev nD) : Arr 100000 128 :=
  proj (R := 100000) (K := 128) (C := 128) (V c (Pipeline.arrRef spec0 0)) (V c (Pipeline.arrRef spec0 1)) (colOf2 (V c (Pipeline.arrRef spec0 2)) 0)
def G1a (c : Dev nD) : Arr 100000 128 :=
  act (R := 100000) (C := 128) (V c (Pipeline.arrRef spec1 0)) (colOf2 (V c (Pipeline.arrRef spec1 2)) 1) (rowOf1 (C := 128) (V c (Pipeline.arrRef spec1 1)))
def G1b (c : Dev nD) : Arr 100000 128 :=
  proj (R := 100000) (K := 128) (C := 128) (G1a V c) (V c (Pipeline.arrRef spec1 3)) (colOf2 (V c (Pipeline.arrRef spec1 2)) 0)
def G2 (c : Dev nD) : Arr 100000 40 :=
  proj (R := 100000) (K := 128) (C := 40)
    (mix (R := 100000) (C := 128) (V c (Pipeline.arrRef spec2 3))
      (act (R := 100000) (C := 128) (V c (Pipeline.arrRef spec2 0)) (colOf2 (V c (Pipeline.arrRef spec2 2)) 1) (rowOf1 (C := 128) (V c (Pipeline.arrRef spec2 1)))))
    (V c (Pipeline.arrRef spec2 4)) (colOf2 (V c (Pipeline.arrRef spec2 2)) 0)
def G3 (c : Dev nD) : Arr 100000 40 :=
  lin (R := 100000) (C := 40) (V c (Pipeline.arrRef spec3 0)) (colOf2 (V c (Pipeline.arrRef spec3 2)) 1) (rowOf1 (C := 40) (V c (Pipeline.arrRef spec3 1)))

/-- What point t of region 0 writes back through window 3 is rows 5000·t … of the stage of the whole arrays. -/
theorem flushed0_3 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz, body0 (iblk0 V c 0 t) (iblk0 V c 1 t) (iblk0 V c 2 t), whole0_1 V c t]
  funext y
  obtain ⟨p, j, rfl⟩ : ∃ (p : Fin 5000) (j : Fin 128), y = ix2 p j := ⟨y 0, y 1, eq_ix2 y⟩
  obtain ⟨e0, e1⟩ := idx0_3 t
  have ht := lt20_0 t
  have hr : 5000 * t.val + p.val < 100000 := by have := p.isLt; omega
  have he : ((cfg0.win 3).blk t).view.emb (ix2 p j) = ix2 ⟨5000 * t.val + p.val, hr⟩ j := funext fun a => Fin.ext (by
    match a with
    | ⟨0, _⟩ => show win0_3.index t (0 : Fin 2) * 5000 + 1 * p.val = 5000 * t.val + p.val; omega
    | ⟨1, _⟩ => show win0_3.index t (1 : Fin 2) * 128 + 1 * j.val = j.val; omega)
  rw [View.read_apply, he]
  exact rowsAt_proj (rows0_0 V c t) _ (fun p r e => rows0_2 V c t p r 0 e) p ⟨_, hr⟩ j rfl

theorem mem_blk0_3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every row is in the block of the point numbered by the row's quotient by 5000. -/
theorem covered0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hq : (i 0).val / 5000 < cfg0.N := lt_of_lt_of_eq (by omega) N_0.symm
  refine ⟨⟨(i 0).val / 5000, hq⟩, flush0_3 _, ?_⟩
  rw [mem_blk0_3]
  obtain ⟨e0, e1⟩ := idx0_3 ⟨(i 0).val / 5000, hq⟩
  intro a
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hq⟩ (1 : Fin 2) * 128 ≤ (i 1).val
      ∧ (i 1).val < win0_3.index ⟨(i 0).val / 5000, hq⟩ (1 : Fin 2) * 128 + 128
    rw [e1]; omega

/-- THE ARRAY region 0 leaves through window 3. -/
theorem final0_3 (c : Dev nD) : (dat0 V c).arrAt 3 cfg0.N = G0 V c :=
  (dat0 V c).arrAt_eq_of_cover 3 (G0 V c) (fun t _ => flushed0_3 V c t) (covered0_3)

/-- What point t of region 1 writes back through window 4 is rows 5000·t … of the stage of the whole arrays. -/
theorem flushed1_4 (c : Dev nD) (t : Fin cfg1.N) :
    (dat1 V c).flushed 4 t = ((cfg1.win 4).blk t).view.read (Elt Ideal) (G1a V c) := by
  show (cfg1.win 4).cut (grid1.coords t) ((dat1 V c).after 4 t) = _
  rw [after1_4]
  unfold out1_4
  rw [View.canon_unit_zero hz, body1a (iblk1 V c 0 t) (iblk1 V c 1 t) (iblk1 V c 2 t), whole1_1 V c t]
  funext y
  obtain ⟨p, j, rfl⟩ : ∃ (p : Fin 5000) (j : Fin 128), y = ix2 p j := ⟨y 0, y 1, eq_ix2 y⟩
  obtain ⟨e0, e1⟩ := idx1_4 t
  have ht := lt20_1 t
  have hr : 5000 * t.val + p.val < 100000 := by have := p.isLt; omega
  have he : ((cfg1.win 4).blk t).view.emb (ix2 p j) = ix2 ⟨5000 * t.val + p.val, hr⟩ j := funext fun a => Fin.ext (by
    match a with
    | ⟨0, _⟩ => show win1_4.index t (0 : Fin 2) * 5000 + 1 * p.val = 5000 * t.val + p.val; omega
    | ⟨1, _⟩ => show win1_4.index t (1 : Fin 2) * 128 + 1 * j.val = j.val; omega)
  rw [View.read_apply, he]
  exact rowsAt_act (rows1_0 V c t) (fun p r e => rows1_2 V c t p r 1 e) _ p ⟨_, hr⟩ j rfl

theorem mem_blk1_4 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v30_0).slice (win1_4.rect t)).set ↔ _
  rw [View.set_slice_whole, Rect.mem_set_unit]
  exact Iff.rfl

/-- Every row is in the block of the point numbered by the row's quotient by 5000. -/
theorem covered1_4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hq : (i 0).val / 5000 < cfg1.N := lt_of_lt_of_eq (by omega) N_1.symm
  refine ⟨⟨(i 0).val / 5000, hq⟩, flush1_4 _, ?_⟩
  rw [mem_blk1_4]
  obtain ⟨e0, e1⟩ := idx1_4 ⟨(i 0).val / 5000, hq⟩
  intro a
  match a with
  | ⟨0, _⟩ =>
    show win1_4.index ⟨(i 0).val / 5000, hq⟩ (0 : Fin 2) * 5000 ≤ (i 0).val
      ∧ (i 0).val < win1_4.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hq⟩ (1 : Fin 2) * 128 ≤ (i 1).val
      ∧ (i 1).val < win1_4.index ⟨(i 0).val / 5000, hq⟩ (1 : Fin 2) * 128 + 128
    rw [e1]; omega

/-- THE ARRAY region 1 leaves through window 4. -/
theorem final1_4 (c : Dev nD) : (dat1 V c).arrAt 4 cfg1.N = G1a V c :=
  (dat1 V c).arrAt_eq_of_cover 4 (G1a V c) (fun t _ => flushed1_4 V c t) (covered1_4)

/-- What point t of region 1 writes back through window 5 is rows 5000·t … of the stage of the whole arrays. -/
theorem flushed1_5 (c : Dev nD) (t : Fin cfg1.N) :
    (dat1 V c).flushed 5 t = ((cfg1.win 5).blk t).view.read (Elt Ideal) (G1b V c) := by
  show (cfg1.win 5).cut (grid1.coords t) ((dat1 V c).after 5 t) = _
  rw [after1_5]
  unfold out1_5
  rw [View.canon_unit_zero hz, body1b (iblk1 V c 0 t) (iblk1 V c 1 t) (iblk1 V c 2 t) (iblk1 V c 3 t), whole1_1 V c t, whole1_3 V c t]
  funext y
  obtain ⟨p, j, rfl⟩ : ∃ (p : Fin 5000) (j : Fin 128), y = ix2 p j := ⟨y 0, y 1, eq_ix2 y⟩
  obtain ⟨e0, e1⟩ := idx1_5 t
  have ht := lt20_1 t
  have hr : 5000 * t.val + p.val < 100000 := by have := p.isLt; omega
  have he : ((cfg1.win 5).blk t).view.emb (ix2 p j) = ix2 ⟨5000 * t.val + p.val, hr⟩ j := funext fun a => Fin.ext (by
    match a with
    | ⟨0, _⟩ => show win1_5.index t (0 : Fin 2) * 5000 + 1 * p.val = 5000 * t.val + p.val; omega
    | ⟨1, _⟩ => show win1_5.index t (1 : Fin 2) * 128 + 1 * j.val = j.val; omega)
  rw [View.read_apply, he]
  exact rowsAt_proj (rowsAt_act (rows1_0 V c t) (fun p r e => rows1_2 V c t p r 1 e) _) _ (fun p r e => rows1_2 V c t p r 0 e) p ⟨_, hr⟩ j rfl

theorem mem_blk1_5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v30_1).slice (win1_5.rect t)).set ↔ _
  rw [View.set_slice_whole, Rect.mem_set_unit]
  exact Iff.rfl

/-- Every row is in the block of the point numbered by the row's quotient by 5000. -/
theorem covered1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hq : (i 0).val / 5000 < cfg1.N := lt_of_lt_of_eq (by omega) N_1.symm
  refine ⟨⟨(i 0).val / 5000, hq⟩, flush1_5 _, ?_⟩
  rw [mem_blk1_5]
  obtain ⟨e0, e1⟩ := idx1_5 ⟨(i 0).val / 5000, hq⟩
  intro a
  match a with
  | ⟨0, _⟩ =>
    show win1_5.index ⟨(i 0).val / 5000, hq⟩ (0 : Fin 2) * 5000 ≤ (i 0).val
      ∧ (i 0).val < win1_5.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hq⟩ (1 : Fin 2) * 128 ≤ (i 1).val
      ∧ (i 1).val < win1_5.index ⟨(i 0).val / 5000, hq⟩ (1 : Fin 2) * 128 + 128
    rw [e1]; omega

/-- THE ARRAY region 1 leaves through window 5. -/
theorem final1_5 (c : Dev nD) : (dat1 V c).arrAt 5 cfg1.N = G1b V c :=
  (dat1 V c).arrAt_eq_of_cover 5 (G1b V c) (fun t _ => flushed1_5 V c t) (covered1_5)

/-- What point t of region 2 writes back through window 5 is rows 5000·t … of the stage of the whole arrays. -/
theorem flushed2_5 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz, body2 (iblk2 V c 0 t) (iblk2 V c 1 t) (iblk2 V c 2 t) (iblk2 V c 3 t) (iblk2 V c 4 t), whole2_1 V c t, whole2_4 V c t]
  funext y
  obtain ⟨p, j, rfl⟩ : ∃ (p : Fin 5000) (j : Fin 40), y = ix2 p j := ⟨y 0, y 1, eq_ix2 y⟩
  obtain ⟨e0, e1⟩ := idx2_5 t
  have ht := lt20_2 t
  have hr : 5000 * t.val + p.val < 100000 := by have := p.isLt; omega
  have he : ((cfg2.win 5).blk t).view.emb (ix2 p j) = ix2 ⟨5000 * t.val + p.val, hr⟩ j := funext fun a => Fin.ext (by
    match a with
    | ⟨0, _⟩ => show win2_5.index t (0 : Fin 2) * 5000 + 1 * p.val = 5000 * t.val + p.val; omega
    | ⟨1, _⟩ => show win2_5.index t (1 : Fin 2) * 40 + 1 * j.val = j.val; omega)
  rw [View.read_apply, he]
  exact rowsAt_proj (rowsAt_mix (rows2_3 V c t) (rowsAt_act (rows2_0 V c t) (fun p r e => rows2_2 V c t p r 1 e) _)) _ (fun p r e => rows2_2 V c t p r 0 e) p ⟨_, hr⟩ j rfl

theorem mem_blk2_5 (t : Fin cfg2.N) (i : S100000x40.Idx) :
    i ∈ ((cfg2.win 5).blk t).view.set ↔ ∀ a : Fin 2, win2_5.index t a * S5000x40.size a ≤ (i a).val
      ∧ (i a).val < win2_5.index t a * S5000x40.size a + S5000x40.size a := by
  show i ∈ ((View.whole main_v44).slice (win2_5.rect t)).set ↔ _
  rw [View.set_slice_whole, Rect.mem_set_unit]
  exact Iff.rfl

/-- Every row is in the block of the point numbered by the row's quotient by 5000. -/
theorem covered2_5 (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  have hq : (i 0).val / 5000 < cfg2.N := lt_of_lt_of_eq (by omega) N_2.symm
  refine ⟨⟨(i 0).val / 5000, hq⟩, flush2_5 _, ?_⟩
  rw [mem_blk2_5]
  obtain ⟨e0, e1⟩ := idx2_5 ⟨(i 0).val / 5000, hq⟩
  intro a
  match a with
  | ⟨0, _⟩ =>
    show win2_5.index ⟨(i 0).val / 5000, hq⟩ (0 : Fin 2) * 5000 ≤ (i 0).val
      ∧ (i 0).val < win2_5.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hq⟩ (1 : Fin 2) * 40 ≤ (i 1).val
      ∧ (i 1).val < win2_5.index ⟨(i 0).val / 5000, hq⟩ (1 : Fin 2) * 40 + 40
    rw [e1]; omega

/-- THE ARRAY region 2 leaves through window 5. -/
theorem final2_5 (c : Dev nD) : (dat2 V c).arrAt 5 cfg2.N = G2 V c :=
  (dat2 V c).arrAt_eq_of_cover 5 (G2 V c) (fun t _ => flushed2_5 V c t) (covered2_5)

/-- What point t of region 3 writes back through window 3 is rows 5000·t … of the stage of the whole arrays. -/
theorem flushed3_3 (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz, body3 (iblk3 V c 0 t) (iblk3 V c 1 t) (iblk3 V c 2 t), whole3_1 V c t]
  funext y
  obtain ⟨p, j, rfl⟩ : ∃ (p : Fin 5000) (j : Fin 40), y = ix2 p j := ⟨y 0, y 1, eq_ix2 y⟩
  obtain ⟨e0, e1⟩ := idx3_3 t
  have ht := lt20_3 t
  have hr : 5000 * t.val + p.val < 100000 := by have := p.isLt; omega
  have he : ((cfg3.win 3).blk t).view.emb (ix2 p j) = ix2 ⟨5000 * t.val + p.val, hr⟩ j := funext fun a => Fin.ext (by
    match a with
    | ⟨0, _⟩ => show win3_3.index t (0 : Fin 2) * 5000 + 1 * p.val = 5000 * t.val + p.val; omega
    | ⟨1, _⟩ => show win3_3.index t (1 : Fin 2) * 40 + 1 * j.val = j.val; omega)
  rw [View.read_apply, he]
  exact rowsAt_lin (rows3_0 V c t) (fun p r e => rows3_2 V c t p r 1 e) _ p ⟨_, hr⟩ j rfl

theorem mem_blk3_3 (t : Fin cfg3.N) (i : S100000x40.Idx) :
    i ∈ ((cfg3.win 3).blk t).view.set ↔ ∀ a : Fin 2, win3_3.index t a * S5000x40.size a ≤ (i a).val
      ∧ (i a).val < win3_3.index t a * S5000x40.size a + S5000x40.size a := by
  show i ∈ ((View.whole main_v58).slice (win3_3.rect t)).set ↔ _
  rw [View.set_slice_whole, Rect.mem_set_unit]
  exact Iff.rfl

/-- Every row is in the block of the point numbered by the row's quotient by 5000. -/
theorem covered3_3 (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  have hq : (i 0).val / 5000 < cfg3.N := lt_of_lt_of_eq (by omega) N_3.symm
  refine ⟨⟨(i 0).val / 5000, hq⟩, flush3_3 _, ?_⟩
  rw [mem_blk3_3]
  obtain ⟨e0, e1⟩ := idx3_3 ⟨(i 0).val / 5000, hq⟩
  intro a
  match a with
  | ⟨0, _⟩ =>
    show win3_3.index ⟨(i 0).val / 5000, hq⟩ (0 : Fin 2) * 5000 ≤ (i 0).val
      ∧ (i 0).val < win3_3.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, hq⟩ (1 : Fin 2) * 40 ≤ (i 1).val
      ∧ (i 1).val < win3_3.index ⟨(i 0).val / 5000, hq⟩ (1 : Fin 2) * 40 + 40
    rw [e1]; omega

/-- THE ARRAY region 3 leaves through window 3. -/
theorem final3_3 (c : Dev nD) : (dat3 V c).arrAt 3 cfg3.N = G3 V c :=
  (dat3 V c).arrAt_eq_of_cover 3 (G3 V c) (fun t _ => flushed3_3 V c t) (covered3_3)

end Cert.KernelIdeal.Arrays

end
-- ==== Proof.RefStages.lean ====
import proofs.«120881_j90460601188826_2_alg».proof.Proof.Gen.ReferenceIdeal.Read
import proofs.«120881_j90460601188826_2_alg».proof.Proof.Spec

set_option maxRecDepth 16384

noncomputable section

namespace Cert.ReferenceIdeal.Stages

open Cert.ReferenceIdeal Cert.ReferenceIdeal.Gen Cert.ReferenceIdeal.Read Idealize.ShloMosaic Idealize.ShloMosaic.ValueIdx Cert.Gcn Cert.MatProduct

/-! # The reference's dense stages are the network's stages on whole arrays

Between two aggregations over the edges the reference computes, entry by entry, a product with a weight matrix scaled
by a degree factor, an affine step (clamped at zero or not), and the alignment of two feature arrays by their row
norms. Each is read here at an entry `(r, c)` and identified with the corresponding whole-array function of the
specification at 100000 rows. The aggregations themselves are left as they are. -/

variable (x0 : (⟨S100000x128, .f32⟩ : BufTy).Contents (Elt Ideal))
  (x1 x2 : (⟨S1600000, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x40, .f32⟩ : BufTy).Contents (Elt Ideal))
  (x8 : (⟨S40, .f32⟩ : BufTy).Contents (Elt Ideal))

/-! ## The degree factors

The reference recomputes the two degree factors (the out-degrees and the in-degrees, clipped below at one, to the power
minus one half) before every layer; the three computations of each are the same term. -/

theorem deg_out_2 : val_main_v45 (F := Ideal) x1 = val_main_v11 (F := Ideal) x1 := rfl
theorem deg_in_2 : val_main_v60 (F := Ideal) x2 = val_main_v26 (F := Ideal) x2 := rfl
theorem deg_out_3 : val_main_v89 (F := Ideal) x1 = val_main_v11 (F := Ideal) x1 := rfl
theorem deg_in_3 : val_main_v104 (F := Ideal) x2 = val_main_v26 (F := Ideal) x2 := rfl

/-! ## The kinds of stage at an entry, for arbitrary operands

Stated for arbitrary arrays in place of the earlier stages, so that each stage below is an instance. -/

/-- The host's product of a 100000 by 128 array with a 128 by 128 matrix is the matrix product. -/
theorem dot128_eq_prod (a : (⟨S100000x128, .f32⟩ : BufTy).Contents (Elt Ideal))
    (w : (⟨S128x128, .f32⟩ : BufTy).Contents (Elt Ideal)) :
    Host.dotGeneral (F := Ideal) (φ₁ := .f32) (φ₂ := .f32) dot_S100000x128_S128x128_S100000x128_1_0_0_1_n_n none a w
      = prod (M := 100000) (K := 128) (N := 128) a w :=
  dotGeneral_eq_prod (M := 100000) (K := 128) (N := 128) (φ₁ := .f32) (φ₂ := .f32) none .single a w

/-- The host's product of a 100000 by 128 array with a 128 by 40 matrix is the matrix product. -/
theorem dot40_eq_prod (a : (⟨S100000x128, .f32⟩ : BufTy).Contents (Elt Ideal))
    (w : (⟨S128x40, .f32⟩ : BufTy).Contents (Elt Ideal)) :
    Host.dotGeneral (F := Ideal) (φ₁ := .f32) (φ₂ := .f32) dot_S100000x128_S128x40_S100000x40_1_0_0_1_n_n none a w
      = prod (M := 100000) (K := 128) (N := 40) a w :=
  dotGeneral_eq_prod (M := 100000) (K := 128) (N := 40) (φ₁ := .f32) (φ₂ := .f32) none .single a w

/-- A product with a 128 by 128 matrix times a row factor, at an entry, is the projection. -/
theorem proj128_read (a : (⟨S100000x128, .f32⟩ : BufTy).Contents (Elt Ideal))
    (w : (⟨S128x128, .f32⟩ : BufTy).Contents (Elt Ideal)) (d : (⟨S100000, .f32⟩ : BufTy).Contents (Elt Ideal))
    (r : Fin 100000) (c : Fin 128) :
    FloatOps.mulf (F := Ideal) (φ := .f32)
        (Host.dotGeneral (F := Ideal) (φ₁ := .f32) (φ₂ := .f32) dot_S100000x128_S128x128_S100000x128_1_0_0_1_n_n none a w (ix2 r c))
        (d (ix1 r))
      = proj (R := 100000) (K := 128) (C := 128) a w (fun r => d (ix1 r)) (ix2 r c) := by
  show _ * d (ix1 r) = prod (M := 100000) (K := 128) (N := 128) a w (ix2 r c) * d (ix1 r)
  exact congrArg (fun z : EReal => z * d (ix1 r)) (congrFun (dot128_eq_prod a w) (ix2 r c))

/-- A product with a 128 by 40 matrix times a row factor, at an entry, is the projection. -/
theorem proj40_read (a : (⟨S100000x128, .f32⟩ : BufTy).Contents (Elt Ideal))
    (w : (⟨S128x40, .f32⟩ : BufTy).Contents (Elt Ideal)) (d : (⟨S100000, .f32⟩ : BufTy).Contents (Elt Ideal))
    (r : Fin 100000) (c : Fin 40) :
    FloatOps.mulf (F := Ideal) (φ := .f32)
        (Host.dotGeneral (F := Ideal) (φ₁ := .f32) (φ₂ := .f32) dot_S100000x128_S128x40_S100000x40_1_0_0_1_n_n none a w (ix2 r c))
        (d (ix1 r))
      = proj (R := 100000) (K := 128) (C := 40) a w (fun r => d (ix1 r)) (ix2 r c) := by
  show _ * d (ix1 r) = prod (M := 100000) (K := 128) (N := 40) a w (ix2 r c) * d (ix1 r)
  exact congrArg (fun z : EReal => z * d (ix1 r)) (congrFun (dot40_eq_prod a w) (ix2 r c))

/-- An entry times a row factor plus a column's bias, clamped at the zero word, is the clamped affine step. -/
theorem act_read (a : (⟨S100000x128, .f32⟩ : BufTy).Contents (Elt Ideal)) (d : (⟨S100000, .f32⟩ : BufTy).Contents (Elt Ideal))
    (b : (⟨S128, .f32⟩ : BufTy).Contents (Elt Ideal)) (r : Fin 100000) (c : Fin 128) :
    FloatOps.maximumf (F := Ideal) (φ := .f32)
        (FloatOps.addf (F := Ideal) (φ := .f32)
          (FloatOps.mulf (F := Ideal) (φ := .f32) (a (ix2 r c)) (d (ix1 r))) (b (ix1 c)))
        (FloatOps.ofBits (F := Ideal) .f32 0x00000000#32)
      = act (R := 100000) (C := 128) a (fun r => d (ix1 r)) (fun j => b (ix1 j)) (ix2 r c) := rfl

/-- An entry times a row factor plus a column's bias is the affine step. -/
theorem lin_read (a : (⟨S100000x40, .f32⟩ : BufTy).Contents (Elt Ideal)) (d : (⟨S100000, .f32⟩ : BufTy).Contents (Elt Ideal))
    (b : (⟨S40, .f32⟩ : BufTy).Contents (Elt Ideal)) (r : Fin 100000) (c : Fin 40) :
    FloatOps.addf (F := Ideal) (φ := .f32)
        (FloatOps.mulf (F := Ideal) (φ := .f32) (a (ix2 r c)) (d (ix1 r))) (b (ix1 c))
      = lin (R := 100000) (C := 40) a (fun r => d (ix1 r)) (fun j => b (ix1 j)) (ix2 r c) := rfl

/-- The square root of the zero word plus the sum of the squares along a row is the row's Euclidean norm. -/
theorem norm_read (h : (⟨S100000x128, .f32⟩ : BufTy).Contents (Elt Ideal)) (r : Fin 100000) (q : Fin 1) :
    FloatOps.hostUnary (F := Ideal) .sqrt (φ := .f32)
        (FloatOps.ofBits (F := Ideal) .f32 0x00000000#32
          + ∑ k : Fin 128, mulf (F := Ideal) (s := S100000x128) (φ := .f32) h h
              (idx_main_call6_v1 (idx_main_call6_v2 (ix2 r q)) k))
      = rowNorm (R := 100000) (C := 128) h r := by
  show Ideal.sqrt (Ideal.ofBits .f32 0x00000000#32 + _) = Ideal.sqrt _
  rw [Ideal.ofBits_zero_f32, zero_add]
  refine congrArg Ideal.sqrt (Finset.sum_congr rfl fun k _ => ?_)
  have e : idx_main_call6_v1 (idx_main_call6_v2 (ix2 r q)) k = ix2 r k :=
    funext fun a => Fin.ext (by match a with | ⟨0, _⟩ => rfl | ⟨1, _⟩ => rfl)
  rw [e]
  rfl

/-- The weighted sum of an entry of the later features and the entry of the earlier ones rescaled by the quotient of
    the two row norms is the alignment. -/
theorem mix_read (hp hn : (⟨S100000x128, .f32⟩ : BufTy).Contents (Elt Ideal)) (r : Fin 100000) (c : Fin 128) :
    FloatOps.addf (F := Ideal) (φ := .f32)
        (FloatOps.mulf (F := Ideal) (φ := .f32) (FloatOps.ofBits (F := Ideal) .f32 0x3F1EB852#32) (hn (ix2 r c)))
        (FloatOps.mulf (F := Ideal) (φ := .f32) (FloatOps.ofBits (F := Ideal) .f32 0x3EC28F5C#32)
          (FloatOps.mulf (F := Ideal) (φ := .f32) (hp (ix2 r c))
            (FloatOps.hostDivf (F := Ideal) (φ := .f32)
              (rowNorm (R := 100000) (C := 128) hn r) (rowNorm (R := 100000) (C := 128) hp r))))
      = mix (R := 100000) (C := 128) hp hn (ix2 r c) := rfl

/-! ## The first layer -/

/-- The first projection: the input features times the first weights, each row scaled by its out-degree factor. -/
theorem stage_v14 :
    val_main_v14 (F := Ideal) x0 x1 x3
      = proj (R := 100000) (K := 128) (C := 128) x0 x3 (fun r => val_main_v11 (F := Ideal) x1 (ix1 r)) := by
  funext y
  obtain ⟨r, c, rfl⟩ : ∃ (r : Fin 100000) (c : Fin 128), y = ix2 r c := ⟨y 0, y 1, eq_ix2 y⟩
  rw [val_main_v14_apply, val_main_v13_apply, val_main_v12_apply]
  have e : idx_main_v12 (idx_main_v13 (ix2 r c)) = ix1 r :=
    funext fun a => Fin.ext (by match a with | ⟨0, _⟩ => rfl)
  rw [e]
  unfold val_main_v9
  generalize val_main_v11 (F := Ideal) x1 = d
  exact proj128_read x0 x3 d r c

/-- The first layer's output: the first aggregation, each row scaled by its in-degree factor, plus the first bias,
    clamped at zero. -/
theorem stage_v33 :
    val_main_v33 (F := Ideal) x0 x1 x2 x3 x4
      = act (R := 100000) (C := 128) (val_main_v24 (F := Ideal) x0 x1 x2 x3)
          (fun r => val_main_v26 (F := Ideal) x2 (ix1 r)) (fun j => x4 (ix1 j)) := by
  funext y
  obtain ⟨r, c, rfl⟩ : ∃ (r : Fin 100000) (c : Fin 128), y = ix2 r c := ⟨y 0, y 1, eq_ix2 y⟩
  rw [val_main_v33_apply, val_main_v32_apply, val_main_v29_apply, val_main_v28_apply, val_main_v27_apply,
    val_main_v31_apply, val_main_v30_apply, val_main_call2_v0_apply, val_main_call2_cst_apply]
  have e1 : idx_main_v27 (idx_main_v28 (ix2 r c)) = ix1 r :=
    funext fun a => Fin.ext (by match a with | ⟨0, _⟩ => rfl)
  have e2 : idx_main_v30 (idx_main_v31 (ix2 r c)) = ix1 c :=
    funext fun a => Fin.ext (by match a with | ⟨0, _⟩ => rfl)
  rw [e1, e2]
  generalize val_main_v24 (F := Ideal) x0 x1 x2 x3 = a
  generalize val_main_v26 (F := Ideal) x2 = d
  exact act_read a d x4 r c

/-! ## The second layer -/

/-- The second projection: the first layer's output times the second weights, each row scaled by its out-degree
    factor. -/
theorem stage_v48 :
    val_main_v48 (F := Ideal) x0 x1 x2 x3 x4 x5
      = proj (R := 100000) (K := 128) (C := 128) (val_main_v33 (F := Ideal) x0 x1 x2 x3 x4) x5
          (fun r => val_main_v11 (F := Ideal) x1 (ix1 r)) := by
  funext y
  obtain ⟨r, c, rfl⟩ : ∃ (r : Fin 100000) (c : Fin 128), y = ix2 r c := ⟨y 0, y 1, eq_ix2 y⟩
  rw [val_main_v48_apply, val_main_v47_apply, val_main_v46_apply, deg_out_2 x1]
  have e : idx_main_v46 (idx_main_v47 (ix2 r c)) = ix1 r :=
    funext fun a => Fin.ext (by match a with | ⟨0, _⟩ => rfl)
  rw [e]
  unfold val_main_v43
  generalize val_main_v33 (F := Ideal) x0 x1 x2 x3 x4 = a
  generalize val_main_v11 (F := Ideal) x1 = d
  exact proj128_read a x5 d r c

/-- The second layer's output: the second aggregation, each row scaled by its in-degree factor, plus the second bias,
    clamped at zero. -/
theorem stage_v67 :
    val_main_v67 (F := Ideal) x0 x1 x2 x3 x4 x5 x6
      = act (R := 100000) (C := 128) (val_main_v58 (F := Ideal) x0 x1 x2 x3 x4 x5)
          (fun r => val_main_v26 (F := Ideal) x2 (ix1 r)) (fun j => x6 (ix1 j)) := by
  funext y
  obtain ⟨r, c, rfl⟩ : ∃ (r : Fin 100000) (c : Fin 128), y = ix2 r c := ⟨y 0, y 1, eq_ix2 y⟩
  rw [val_main_v67_apply, val_main_v66_apply, val_main_v63_apply, val_main_v62_apply, val_main_v61_apply,
    val_main_v65_apply, val_main_v64_apply, val_main_call5_v0_apply, val_main_call5_cst_apply, deg_in_2 x2]
  have e1 : idx_main_v61 (idx_main_v62 (ix2 r c)) = ix1 r :=
    funext fun a => Fin.ext (by match a with | ⟨0, _⟩ => rfl)
  have e2 : idx_main_v64 (idx_main_v65 (ix2 r c)) = ix1 c :=
    funext fun a => Fin.ext (by match a with | ⟨0, _⟩ => rfl)
  rw [e1, e2]
  generalize val_main_v58 (F := Ideal) x0 x1 x2 x3 x4 x5 = a
  generalize val_main_v26 (F := Ideal) x2 = d
  exact act_read a d x6 r c

/-! ## The alignment -/

/-- The norm column of the first layer's output. -/
theorem norm_prev (r : Fin 100000) (q : Fin 1) :
    val_main_v68 (F := Ideal) x0 x1 x2 x3 x4 (ix2 r q)
      = rowNorm (R := 100000) (C := 128) (val_main_v33 (F := Ideal) x0 x1 x2 x3 x4) r := by
  rw [val_main_v68_apply, val_main_call6_v2_apply, val_main_call6_v1_apply, val_main_call6_cst_apply]
  unfold val_main_call6_v0
  generalize val_main_v33 (F := Ideal) x0 x1 x2 x3 x4 = h
  exact norm_read h r q

/-- The norm column of the second layer's output. -/
theorem norm_next (r : Fin 100000) (q : Fin 1) :
    val_main_v69 (F := Ideal) x0 x1 x2 x3 x4 x5 x6 (ix2 r q)
      = rowNorm (R := 100000) (C := 128) (val_main_v67 (F := Ideal) x0 x1 x2 x3 x4 x5 x6) r := by
  rw [val_main_v69_apply, val_main_call7_v2_apply, val_main_call7_v1_apply, val_main_call7_cst_apply]
  unfold val_main_call7_v0
  generalize val_main_v67 (F := Ideal) x0 x1 x2 x3 x4 x5 x6 = h
  exact norm_read h r q

/-- The alignment of the first layer's output to the second layer's. -/
theorem stage_v77 :
    val_main_v77 (F := Ideal) x0 x1 x2 x3 x4 x5 x6
      = mix (R := 100000) (C := 128) (val_main_v33 (F := Ideal) x0 x1 x2 x3 x4)
          (val_main_v67 (F := Ideal) x0 x1 x2 x3 x4 x5 x6) := by
  funext y
  obtain ⟨r, c, rfl⟩ : ∃ (r : Fin 100000) (c : Fin 128), y = ix2 r c := ⟨y 0, y 1, eq_ix2 y⟩
  rw [val_main_v77_apply, val_main_v74_apply, val_main_v76_apply, val_main_v72_apply, val_main_v71_apply,
    val_main_v70_apply, val_main_v73_apply, val_main_v75_apply, val_main_cst_18_apply, val_main_cst_19_apply]
  have e : idx_main_v71 (ix2 r c) = ix2 r (0 : Fin 1) :=
    funext fun a => Fin.ext (by match a with | ⟨0, _⟩ => rfl | ⟨1, _⟩ => rfl)
  rw [e, norm_prev x0 x1 x2 x3 x4 r 0, norm_next x0 x1 x2 x3 x4 x5 x6 r 0]
  generalize val_main_v33 (F := Ideal) x0 x1 x2 x3 x4 = hp
  generalize val_main_v67 (F := Ideal) x0 x1 x2 x3 x4 x5 x6 = hn
  exact mix_read hp hn r c

/-! ## The last layer -/

/-- The third projection: the aligned features times the third weights, each row scaled by its out-degree factor. -/
theorem stage_v92 :
    val_main_v92 (F := Ideal) x0 x1 x2 x3 x4 x5 x6 x7
      = proj (R := 100000) (K := 128) (C := 40) (val_main_v77 (F := Ideal) x0 x1 x2 x3 x4 x5 x6) x7
          (fun r => val_main_v11 (F := Ideal) x1 (ix1 r)) := by
  funext y
  obtain ⟨r, c, rfl⟩ : ∃ (r : Fin 100000) (c : Fin 40), y = ix2 r c := ⟨y 0, y 1, eq_ix2 y⟩
  rw [val_main_v92_apply, val_main_v91_apply, val_main_v90_apply, deg_out_3 x1]
  have e : idx_main_v90 (idx_main_v91 (ix2 r c)) = ix1 r :=
    funext fun a => Fin.ext (by match a with | ⟨0, _⟩ => rfl)
  rw [e]
  unfold val_main_v87
  generalize val_main_v77 (F := Ideal) x0 x1 x2 x3 x4 x5 x6 = a
  generalize val_main_v11 (F := Ideal) x1 = d
  exact proj40_read a x7 d r c

/-- The result: the third aggregation, each row scaled by its in-degree factor, plus the third bias. -/
theorem stage_v110 :
    val_main_v110 (F := Ideal) x0 x1 x2 x3 x4 x5 x6 x7 x8
      = lin (R := 100000) (C := 40) (val_main_v102 (F := Ideal) x0 x1 x2 x3 x4 x5 x6 x7)
          (fun r => val_main_v26 (F := Ideal) x2 (ix1 r)) (fun j => x8 (ix1 j)) := by
  funext y
  obtain ⟨r, c, rfl⟩ : ∃ (r : Fin 100000) (c : Fin 40), y = ix2 r c := ⟨y 0, y 1, eq_ix2 y⟩
  rw [val_main_v110_apply, val_main_v107_apply, val_main_v106_apply, val_main_v105_apply,
    val_main_v109_apply, val_main_v108_apply, deg_in_3 x2]
  have e1 : idx_main_v105 (idx_main_v106 (ix2 r c)) = ix1 r :=
    funext fun a => Fin.ext (by match a with | ⟨0, _⟩ => rfl)
  have e2 : idx_main_v108 (idx_main_v109 (ix2 r c)) = ix1 c :=
    funext fun a => Fin.ext (by match a with | ⟨0, _⟩ => rfl)
  rw [e1, e2]
  generalize val_main_v102 (F := Ideal) x0 x1 x2 x3 x4 x5 x6 x7 = a
  generalize val_main_v26 (F := Ideal) x2 = d
  exact lin_read a d x8 r c

end Cert.ReferenceIdeal.Stages

end
-- ==== Proof.Chain.lean ====
/-
  The idealized kernel's result is the reference's last stage.

  Boundary by boundary, each array the kernel's program has produced is the reference's stage of the same name in the
  mathematics, as a function of the launch arguments:
    region 0 leaves the first projection; the host stretch after it the first aggregate (the same gather along the
    source nodes and sum into the destination nodes as the reference's, a change of float format being the identity on
    extended reals); region 1 leaves the first layer's features and their projection; the next stretch the second
    aggregate; region 2 the projection of the aligned features; the next stretch the third aggregate; region 3 the
    result. A region's part is `Arrays.lean` (the stage of `Spec.lean` applied to what the region found); which
    buffers the region found at what is `Walk.lean`; that the reference's stage is that stage is `RefStages.lean`.
  The two degree factors reach every region as the two columns of one array the kernel's program builds once; column
  0 at row r is the reference's out-degree factor of node r, column 1 its in-degree factor.
-/
import proofs.«120881_j90460601188826_2_alg».proof.Proof.Walk
import proofs.«120881_j90460601188826_2_alg».proof.Proof.Arrays
import proofs.«120881_j90460601188826_2_alg».proof.Proof.RefStages
import Idealize.ShloMosaic.Lib.StableHlo.Run
import Idealize.ShloMosaic.Lib.Pipeline.Value

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Gcn Cert.KernelIdeal.Walk Cert.KernelIdeal.Arrays
open Cert.ReferenceIdeal.Read Cert.ReferenceIdeal.Stages

variable (m : (ℓ : Loc nD τ sig) → Buf (Elt Ideal) ℓ) (ρ : Dev nD → PrngReg) (c : Dev nD)

/-- The launch arguments on core `c`, at the types the reference's stages take them. -/
abbrev X0 : (⟨Cert.ReferenceIdeal.S100000x128, .f32⟩ : BufTy).Contents (Elt Ideal) := m ((c : Thread nD τ).loc main_arg0)
abbrev X1 : (⟨Cert.ReferenceIdeal.S1600000, .i32⟩ : BufTy).Contents (Elt Ideal) := m ((c : Thread nD τ).loc main_arg1)
abbrev X2 : (⟨Cert.ReferenceIdeal.S1600000, .i32⟩ : BufTy).Contents (Elt Ideal) := m ((c : Thread nD τ).loc main_arg2)
abbrev X3 : (⟨Cert.ReferenceIdeal.S128x128, .f32⟩ : BufTy).Contents (Elt Ideal) := m ((c : Thread nD τ).loc main_arg3)
abbrev X4 : (⟨Cert.ReferenceIdeal.S128, .f32⟩ : BufTy).Contents (Elt Ideal) := m ((c : Thread nD τ).loc main_arg4)
abbrev X5 : (⟨Cert.ReferenceIdeal.S128x128, .f32⟩ : BufTy).Contents (Elt Ideal) := m ((c : Thread nD τ).loc main_arg5)
abbrev X6 : (⟨Cert.ReferenceIdeal.S128, .f32⟩ : BufTy).Contents (Elt Ideal) := m ((c : Thread nD τ).loc main_arg6)
abbrev X7 : (⟨Cert.ReferenceIdeal.S128x40, .f32⟩ : BufTy).Contents (Elt Ideal) := m ((c : Thread nD τ).loc main_arg7)
abbrev X8 : (⟨Cert.ReferenceIdeal.S40, .f32⟩ : BufTy).Contents (Elt Ideal) := m ((c : Thread nD τ).loc main_arg8)

/-! ## The degree factors -/

/-- Two columns joined side by side: column 0 of the result is the first. -/
theorem cat_col0 (a b : (⟨S100000x1, .f32⟩ : BufTy).Contents (Elt Ideal)) (r : Fin 100000) :
    concatenate S100000x2 1 [⟨S100000x1, a⟩, ⟨S100000x1, b⟩] concatenates_S100000x1_S100000x1_S100000x2_d1 (ix2 r 0)
      = a (ix2 r 0) :=
  concatenate_pair_apply_left (t := S100000x2) (s₁ := S100000x1) (s₂ := S100000x1) (1 : Fin 2) a b
    concatenates_S100000x1_S100000x1_S100000x2_d1 (ix2 r 0) rfl (ix2 r 0)
    (fun d => by match d with | ⟨0, _⟩ => rfl | ⟨1, _⟩ => rfl)

/-- … and column 1 is the second. -/
theorem cat_col1 (a b : (⟨S100000x1, .f32⟩ : BufTy).Contents (Elt Ideal)) (r : Fin 100000) :
    concatenate S100000x2 1 [⟨S100000x1, a⟩, ⟨S100000x1, b⟩] concatenates_S100000x1_S100000x1_S100000x2_d1 (ix2 r 1)
      = b (ix2 r 0) :=
  concatenate_pair_apply_right (t := S100000x2) (s₁ := S100000x1) (s₂ := S100000x1) (1 : Fin 2) a b
    concatenates_S100000x1_S100000x1_S100000x2_d1 (ix2 r 1) rfl rfl (ix2 r 0)
    (fun d hd => by
      match d with
      | ⟨0, _⟩ => rfl
      | ⟨1, _⟩ => exact absurd rfl hd) rfl

/-- A vector regarded as a column by a broadcast reads, at (r, 0), the vector's entry r. -/
theorem col_of_vec (v : (⟨S100000, .f32⟩ : BufTy).Contents (Elt Ideal)) (r : Fin 100000) (q : Fin 1) :
    broadcastInDim S100000x1 ![0] bcast_S100000_S100000x1_0 v (ix2 r q) = v (ix1 r) :=
  broadcastInDim_apply _ bcast_S100000_S100000x1_0 v (ix2 r q) (ix1 r) (fun a => by
    match a with
    | ⟨0, _⟩ => show r.val = if (100000 : Nat) = 1 then 0 else r.val; rw [if_neg (by decide)])

section Stretches
variable (V : Valuation τ sig (Elt Ideal))

/-! ### One stretch at a time, from any contents `V` -/

/-- The first stretch: ones per edge summed into the source nodes. -/
theorem s0_v3 : StableHlo.after hostOps0 V (Proc.devRef .tc main_v3)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (V (Proc.devRef .tc main_arg1)))
        (broadcastInDim S1600000 ![] bcast_S_S1600000 (constant (F := Ideal) S_ .f32 0x3F800000#32)) := by
  unfold hostOps0; after_results
theorem s0_cst1 : StableHlo.after hostOps0 V (Proc.devRef .tc main_cst_1) = constant (F := Ideal) S_ .f32 0x3F800000#32 := by
  unfold hostOps0; after_results
theorem s0_v0 : StableHlo.after hostOps0 V (Proc.devRef .tc main_v0)
    = broadcastInDim S1600000 ![] bcast_S_S1600000 (constant (F := Ideal) S_ .f32 0x3F800000#32) := by
  unfold hostOps0; after_results

/-- The clip of the out-degrees below at one. -/
theorem s1_v4 : StableHlo.after hostOps0_1 V (Proc.devRef .tc main_v4)
    = maximumf (F := Ideal) (φ := .f32) (broadcastInDim S100000 ![] bcast_S_S100000 (V (Proc.devRef .tc main_cst_1))) (V (Proc.devRef .tc main_v3)) := by
  unfold hostOps0_1; after_results; rfl

/-- The third stretch: ones per edge summed into the destination nodes. -/
theorem s2_v7 : StableHlo.after hostOps0_2 V (Proc.devRef .tc main_v7)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (V (Proc.devRef .tc main_arg2)))
        (V (Proc.devRef .tc main_v0)) := by
  unfold hostOps0_2; after_results
theorem s2_cst3 : StableHlo.after hostOps0_2 V (Proc.devRef .tc main_cst_3) = constant (F := Ideal) S_ .f32 0x3F800000#32 := by
  unfold hostOps0_2; after_results

/-- The clip of the in-degrees below at one. -/
theorem s3_v8 : StableHlo.after hostOps0_3 V (Proc.devRef .tc main_v8)
    = maximumf (F := Ideal) (φ := .f32) (broadcastInDim S100000 ![] bcast_S_S100000 (V (Proc.devRef .tc main_cst_3))) (V (Proc.devRef .tc main_v7)) := by
  unfold hostOps0_3; after_results; rfl

/-- The fifth stretch: both to the power minus one half, as the two columns of one array. -/
theorem s4_col0 (r : Fin 100000) : StableHlo.after hostOps0_4 V (Proc.devRef .tc main_v15) (ix2 r 0)
    = Host.powf (F := Ideal) (V (Proc.devRef .tc main_v4))
        (broadcastInDim S100000 ![] bcast_S_S100000 (constant (F := Ideal) S_ .f32 0xBF000000#32)) (ix1 r) := by
  simp only [hostOps0_4]; after_results
  exact (cat_col0 _ _ r).trans (col_of_vec _ r 0)
theorem s4_col1 (r : Fin 100000) : StableHlo.after hostOps0_4 V (Proc.devRef .tc main_v15) (ix2 r 1)
    = Host.powf (F := Ideal) (V (Proc.devRef .tc main_v8))
        (broadcastInDim S100000 ![] bcast_S_S100000 (constant (F := Ideal) S_ .f32 0xBF000000#32)) (ix1 r) := by
  simp only [hostOps0_4]; after_results
  exact (cat_col1 _ _ r).trans (col_of_vec _ r 0)

end Stretches

/-! ### The two degree factors at the fifth stretch's entry, and the two columns -/

set_option maxHeartbeats 1000000 in
/-- The clipped out-degrees. -/
theorem deg_out_arr : W4 m ρ c (Proc.devRef .tc main_v4) = val_main_v4 (F := Ideal) (X1 m c) := by
  have h43 : W4 m ρ c (Proc.devRef .tc main_v4) = W3 m ρ c (Proc.devRef .tc main_v4) := by kept_by hostOps0_3
  have h32 : W3 m ρ c (Proc.devRef .tc main_v4) = W2 m ρ c (Proc.devRef .tc main_v4) := by kept_by hostOps0_2
  rw [h43, h32]
  show StableHlo.after hostOps0_1 (W1 m ρ c) (Proc.devRef .tc main_v4) = _
  rw [s1_v4]
  show maximumf (F := Ideal) (φ := .f32) (broadcastInDim S100000 ![] bcast_S_S100000 (StableHlo.after hostOps0 (W0 m ρ c) (Proc.devRef .tc main_cst_1)))
    (StableHlo.after hostOps0 (W0 m ρ c) (Proc.devRef .tc main_v3)) = _
  rw [s0_cst1, s0_v3]
  rfl

set_option maxHeartbeats 1000000 in
/-- The clipped in-degrees. -/
theorem deg_in_arr : W4 m ρ c (Proc.devRef .tc main_v8) = val_main_v8 (F := Ideal) (X2 m c) := by
  show StableHlo.after hostOps0_3 (W3 m ρ c) (Proc.devRef .tc main_v8) = _
  rw [s3_v8]
  show maximumf (F := Ideal) (φ := .f32) (broadcastInDim S100000 ![] bcast_S_S100000 (StableHlo.after hostOps0_2 (W2 m ρ c) (Proc.devRef .tc main_cst_3)))
    (StableHlo.after hostOps0_2 (W2 m ρ c) (Proc.devRef .tc main_v7)) = _
  rw [s2_cst3, s2_v7]
  have ha : W2 m ρ c (Proc.devRef .tc main_arg2) = m ((c : Thread nD τ).loc main_arg2) :=
    (show W2 m ρ c (Proc.devRef .tc main_arg2) = W1 m ρ c (Proc.devRef .tc main_arg2) by kept_by hostOps0_1).trans
      (show W1 m ρ c (Proc.devRef .tc main_arg2) = W0 m ρ c (Proc.devRef .tc main_arg2) by kept_by hostOps0)
  have hv : W2 m ρ c (Proc.devRef .tc main_v0) = StableHlo.after hostOps0 (W0 m ρ c) (Proc.devRef .tc main_v0) := by
    kept_by hostOps0_1
  rw [ha, hv, s0_v0]
  rfl

/-- Column 0 of the two-column array is the out-degree factor. -/
theorem scales0 (r : Fin 100000) :
    W5 m ρ c (Proc.devRef .tc main_v15) (ix2 r 0) = val_main_v11 (F := Ideal) (X1 m c) (ix1 r) := by
  show StableHlo.after hostOps0_4 (W4 m ρ c) (Proc.devRef .tc main_v15) (ix2 r 0) = _
  rw [s4_col0, deg_out_arr]
  rfl

/-- Column 1 is the in-degree factor. -/
theorem scales1 (r : Fin 100000) :
    W5 m ρ c (Proc.devRef .tc main_v15) (ix2 r 1) = val_main_v26 (F := Ideal) (X2 m c) (ix1 r) := by
  show StableHlo.after hostOps0_4 (W4 m ρ c) (Proc.devRef .tc main_v15) (ix2 r 1) = _
  rw [s4_col1, deg_in_arr]
  rfl

theorem dOut : colOf2 (W5 m ρ c (Proc.devRef .tc main_v15)) 0 = fun r => val_main_v11 (F := Ideal) (X1 m c) (ix1 r) :=
  funext fun r => scales0 m ρ c r
theorem dIn : colOf2 (W5 m ρ c (Proc.devRef .tc main_v15)) 1 = fun r => val_main_v26 (F := Ideal) (X2 m c) (ix1 r) :=
  funext fun r => scales1 m ρ c r

/-! ## Region 0 and the first aggregate -/

set_option maxHeartbeats 1000000 in
theorem proj1 : W6 m ρ c (Proc.devRef .tc main_v16) = val_main_v14 (F := Ideal) (X0 m c) (X1 m c) (X3 m c) := by
  refine (W6_arr m ρ c 3).trans ((final0_3 (V5 m ρ) c).trans ?_)
  unfold G0
  rw [show V5 m ρ c (Pipeline.arrRef spec0 0) = m ((c : Thread nD τ).loc main_arg0) from W5_arg0 m ρ c,
    show V5 m ρ c (Pipeline.arrRef spec0 1) = m ((c : Thread nD τ).loc main_arg3) from W5_arg3 m ρ c,
    show V5 m ρ c (Pipeline.arrRef spec0 2) = W5 m ρ c (Proc.devRef .tc main_v15) from rfl, dOut]
  exact (stage_v14 (X0 m c) (X1 m c) (X3 m c)).symm

set_option maxHeartbeats 1000000 in
theorem agg1 : W7 m ρ c (Proc.devRef .tc main_v28) = val_main_v24 (F := Ideal) (X0 m c) (X1 m c) (X2 m c) (X3 m c) := by
  show StableHlo.after hostOps1 (W6 m ρ c) (Proc.devRef .tc main_v28) = _
  unfold hostOps1
  after_results
  rw [proj1 m ρ c, W6_arg1 m ρ c, W6_arg2 m ρ c]
  rfl

set_option maxHeartbeats 1000000 in
theorem bias1 : rowOf1 (C := 128) (W7 m ρ c (Proc.devRef .tc main_v29)) = fun j => X4 m c (ix1 j) := by
  funext j
  show StableHlo.after hostOps1 (W6 m ρ c) (Proc.devRef .tc main_v29) (ix2 0 j) = _
  unfold hostOps1
  after_results
  rw [W6_arg4 m ρ c]
  show shapeCast S1x128 (m ((c : Thread nD τ).loc main_arg4)) shapeCasts_S128_S1x128 (ix2 0 j) = _
  refine shapeCast_apply _ _ (ix2 0 j) (ix1 j) ?_
  rw [Shape.rowMajor_val_one, Shape.rowMajor_val_two]
  show j.val = 0 * 128 + j.val
  omega

/-! ## Region 1 and the second aggregate -/

set_option maxHeartbeats 1000000 in
theorem feat1' : G1a (V7 m ρ) c = val_main_v33 (F := Ideal) (X0 m c) (X1 m c) (X2 m c) (X3 m c) (X4 m c) := by
  unfold G1a
  rw [show V7 m ρ c (Pipeline.arrRef spec1 0) = W7 m ρ c (Proc.devRef .tc main_v28) from rfl, agg1 m ρ c,
    show V7 m ρ c (Pipeline.arrRef spec1 2) = W7 m ρ c (Proc.devRef .tc main_v15) from rfl, W7_scales m ρ c, dIn,
    show V7 m ρ c (Pipeline.arrRef spec1 1) = W7 m ρ c (Proc.devRef .tc main_v29) from rfl, bias1]
  exact (stage_v33 (X0 m c) (X1 m c) (X2 m c) (X3 m c) (X4 m c)).symm

theorem feat1 : W8 m ρ c (Proc.devRef .tc main_v30_0) = val_main_v33 (F := Ideal) (X0 m c) (X1 m c) (X2 m c) (X3 m c) (X4 m c) :=
  (W8_arr m ρ c 4).trans ((final1_4 (V7 m ρ) c).trans (feat1' m ρ c))

set_option maxHeartbeats 1000000 in
theorem proj2 : W8 m ρ c (Proc.devRef .tc main_v30_1)
    = val_main_v48 (F := Ideal) (X0 m c) (X1 m c) (X2 m c) (X3 m c) (X4 m c) (X5 m c) := by
  refine (W8_arr m ρ c 5).trans ((final1_5 (V7 m ρ) c).trans ?_)
  unfold G1b
  rw [feat1' m ρ c,
    show V7 m ρ c (Pipeline.arrRef spec1 3) = m ((c : Thread nD τ).loc main_arg5) from W7_arg5 m ρ c,
    show V7 m ρ c (Pipeline.arrRef spec1 2) = W7 m ρ c (Proc.devRef .tc main_v15) from rfl, W7_scales m ρ c, dOut]
  exact (stage_v48 (X0 m c) (X1 m c) (X2 m c) (X3 m c) (X4 m c) (X5 m c)).symm

set_option maxHeartbeats 1000000 in
theorem agg2 : W9 m ρ c (Proc.devRef .tc main_v42)
    = val_main_v58 (F := Ideal) (X0 m c) (X1 m c) (X2 m c) (X3 m c) (X4 m c) (X5 m c) := by
  show StableHlo.after hostOps2 (W8 m ρ c) (Proc.devRef .tc main_v42) = _
  unfold hostOps2
  after_results
  rw [proj2 m ρ c, W8_arg1 m ρ c, W8_arg2 m ρ c]
  rfl

set_option maxHeartbeats 1000000 in
theorem bias2 : rowOf1 (C := 128) (W9 m ρ c (Proc.devRef .tc main_v43)) = fun j => X6 m c (ix1 j) := by
  funext j
  show StableHlo.after hostOps2 (W8 m ρ c) (Proc.devRef .tc main_v43) (ix2 0 j) = _
  unfold hostOps2
  after_results
  rw [W8_arg6 m ρ c]
  show shapeCast S1x128 (m ((c : Thread nD τ).loc main_arg6)) shapeCasts_S128_S1x128 (ix2 0 j) = _
  refine shapeCast_apply _ _ (ix2 0 j) (ix1 j) ?_
  rw [Shape.rowMajor_val_one, Shape.rowMajor_val_two]
  show j.val = 0 * 128 + j.val
  omega

/-! ## Region 2 and the third aggregate -/

set_option maxHeartbeats 1000000 in
theorem proj3 : W10 m ρ c (Proc.devRef .tc main_v44)
    = val_main_v92 (F := Ideal) (X0 m c) (X1 m c) (X2 m c) (X3 m c) (X4 m c) (X5 m c) (X6 m c) (X7 m c) := by
  refine (W10_arr m ρ c 5).trans ((final2_5 (V9 m ρ) c).trans ?_)
  unfold G2
  rw [show V9 m ρ c (Pipeline.arrRef spec2 3) = W9 m ρ c (Proc.devRef .tc main_v30_0) from rfl, W9_feat m ρ c, feat1 m ρ c,
    show V9 m ρ c (Pipeline.arrRef spec2 0) = W9 m ρ c (Proc.devRef .tc main_v42) from rfl, agg2 m ρ c,
    show V9 m ρ c (Pipeline.arrRef spec2 2) = W9 m ρ c (Proc.devRef .tc main_v15) from rfl, W9_scales m ρ c, dIn, dOut,
    show V9 m ρ c (Pipeline.arrRef spec2 1) = W9 m ρ c (Proc.devRef .tc main_v43) from rfl, bias2,
    show V9 m ρ c (Pipeline.arrRef spec2 4) = m ((c : Thread nD τ).loc main_arg7) from W9_arg7 m ρ c,
    ← stage_v67 (X0 m c) (X1 m c) (X2 m c) (X3 m c) (X4 m c) (X5 m c) (X6 m c),
    ← stage_v77 (X0 m c) (X1 m c) (X2 m c) (X3 m c) (X4 m c) (X5 m c) (X6 m c)]
  exact (stage_v92 (X0 m c) (X1 m c) (X2 m c) (X3 m c) (X4 m c) (X5 m c) (X6 m c) (X7 m c)).symm

set_option maxHeartbeats 1000000 in
theorem agg3 : W11 m ρ c (Proc.devRef .tc main_v56)
    = val_main_v102 (F := Ideal) (X0 m c) (X1 m c) (X2 m c) (X3 m c) (X4 m c) (X5 m c) (X6 m c) (X7 m c) := by
  show StableHlo.after hostOps3 (W10 m ρ c) (Proc.devRef .tc main_v56) = _
  unfold hostOps3
  after_results
  rw [proj3 m ρ c, W10_arg1 m ρ c, W10_arg2 m ρ c]
  rfl

set_option maxHeartbeats 1000000 in
theorem bias3 : rowOf1 (C := 40) (W11 m ρ c (Proc.devRef .tc main_v57)) = fun j => X8 m c (ix1 j) := by
  funext j
  show StableHlo.after hostOps3 (W10 m ρ c) (Proc.devRef .tc main_v57) (ix2 0 j) = _
  unfold hostOps3
  after_results
  rw [W10_arg8 m ρ c]
  show shapeCast S1x40 (m ((c : Thread nD τ).loc main_arg8)) shapeCasts_S40_S1x40 (ix2 0 j) = _
  refine shapeCast_apply _ _ (ix2 0 j) (ix1 j) ?_
  rw [Shape.rowMajor_val_one, Shape.rowMajor_val_two]
  show j.val = 0 * 40 + j.val
  omega

/-! ## Region 3: the result -/

set_option maxHeartbeats 1000000 in
/-- The result buffer ends at the reference's last stage of the launch arguments. -/
theorem result_eq : W12 m ρ c (Proc.devRef .tc main_v58)
    = val_main_v110 (F := Ideal) (X0 m c) (X1 m c) (X2 m c) (X3 m c) (X4 m c) (X5 m c) (X6 m c) (X7 m c) (X8 m c) := by
  refine (W12_arr m ρ c 3).trans ((final3_3 (V11 m ρ) c).trans ?_)
  unfold G3
  rw [show V11 m ρ c (Pipeline.arrRef spec3 0) = W11 m ρ c (Proc.devRef .tc main_v56) from rfl, agg3 m ρ c,
    show V11 m ρ c (Pipeline.arrRef spec3 2) = W11 m ρ c (Proc.devRef .tc main_v15) from rfl, W11_scales m ρ c, dIn,
    show V11 m ρ c (Pipeline.arrRef spec3 1) = W11 m ρ c (Proc.devRef .tc main_v57) from rfl, bias3]
  exact (stage_v110 (X0 m c) (X1 m c) (X2 m c) (X3 m c) (X4 m c) (X5 m c) (X6 m c) (X7 m c) (X8 m c)).symm

end Cert.KernelIdeal.Chain

end
-- ==== Proof.lean ====
/-
  A three-layer graph convolution with an alignment step (100000 nodes, 1600000 edges, 128 features, 40 classes),
  as four pipelined kernels among host operations, against the plain formulation.

  Each layer is  D_in^(-1/2) · A · D_out^(-1/2) · X · W + b:  project the features (X · W, row r scaled by the
  out-degree factor of node r), gather the projected rows along the edges' sources and sum them into the edges'
  destinations, scale row r by the in-degree factor of node r and add the bias. After the second layer the first
  layer's features are rescaled row by row to the second's norm and the two are mixed with weights 0.62 and 0.38.

  The kernel's program computes the two degree factors once and carries them as the two columns of one array; it
  does every dense stage in blocks of 5000 rows on the device, two stages fused per region, with the matrix products
  and the gathered rows in a shorter float format; the reference computes the degree factors anew for every layer
  and every dense stage on whole arrays. On the extended reals a change of float format is the identity and the
  matrix unit's product accumulated into zero is the plain product, so the only differences left are the blocking
  by rows and the repeated degree factors:
    * every dense stage acts on each row by itself, so a block of rows of the stage is the stage of the block of
      rows, and the 20 blocks tile the 100000 rows (`Spec`, `Bodies`, `Arrays`);
    * the three computations of a degree factor are one term (`RefStages`), which is the corresponding column of
      the kernel's two-column array (`Chain`);
    * the gather and the sum over the edges are the same operations on both sides and are never opened.
  No law of arithmetic beyond this is used, and the inputs' finiteness is not needed.

  The three frames: the two kernels' are their generated frame certificates; the reference has no kernel, and its
  frame is its run with the result dropped. The idealization rewrote no operation, so that claim is `True`.
-/
import proofs.«120881_j90460601188826_2_alg».proof.Defs
import proofs.«120881_j90460601188826_2_alg».proof.Proof.Gen.Kernel
import proofs.«120881_j90460601188826_2_alg».proof.Proof.Gen.Kernel.Skeleton
import proofs.«120881_j90460601188826_2_alg».proof.Proof.Gen.Kernel.Launch
import proofs.«120881_j90460601188826_2_alg».proof.Proof.Gen.Kernel.Points
import proofs.«120881_j90460601188826_2_alg».proof.Proof.Gen.Kernel.Frame
import proofs.«120881_j90460601188826_2_alg».proof.Proof.Gen.KernelIdeal
import proofs.«120881_j90460601188826_2_alg».proof.Proof.Gen.KernelIdeal.Skeleton
import proofs.«120881_j90460601188826_2_alg».proof.Proof.Gen.KernelIdeal.Launch
import proofs.«120881_j90460601188826_2_alg».proof.Proof.Gen.KernelIdeal.Points
import proofs.«120881_j90460601188826_2_alg».proof.Proof.Gen.KernelIdeal.Frame
import proofs.«120881_j90460601188826_2_alg».proof.Proof.Gen.ReferenceIdeal
import proofs.«120881_j90460601188826_2_alg».proof.Proof.Gen.Pre_finite_inputs
import proofs.«120881_j90460601188826_2_alg».proof.Proof.Gen.ReferenceIdeal.Run
import proofs.«120881_j90460601188826_2_alg».proof.Proof.Gen.ReferenceIdeal.Read
import proofs.«120881_j90460601188826_2_alg».proof.Proof.RunOut
import proofs.«120881_j90460601188826_2_alg».proof.Proof.Chain
import Idealize.ShloMosaic.Adequacy
import Idealize.ShloMosaic.Init

noncomputable section

namespace Cert.Proof

open Idealize.ShloMosaic Idealize.SL.Sem

/-- From memories agreeing on the arguments both idealized programs run to the end, the kernel's result buffer at
    the last boundary of its run and the reference's at its last stage: one array (`Chain.result_eq`). -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v58),
    Cert.KernelIdeal.RunOut.run_out (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.KernelIdeal.Chain.result_eq m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
